-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S2x16000000 : Shape := ⟨2, ![2, 16000000]⟩
abbrev S3x128 : Shape := ⟨2, ![3, 128]⟩
abbrev S3 : Shape := ⟨1, ![3]⟩
abbrev S4x3 : Shape := ⟨2, ![4, 3]⟩
abbrev S4 : Shape := ⟨1, ![4]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S4x3 : S_.BroadcastsInDim S4x3 (![] : Fin 0 → Fin S4x3.rank)
  reducesTo_S4x3_S_d0_1 : S4x3.ReducesTo [0, 1] S_
  bcast_S_S4 : S_.BroadcastsInDim S4 (![] : Fin 0 → Fin S4.rank)
  reducesTo_S4_S_d0 : S4.ReducesTo [0] S_

variable [Facts]

def fn_part1 {F : FTy → Type} [FloatOps F] (main_arg5 : FVec F S4 .f32) (main_v13 : IVec S_ 1) (main_v16 : IVec S4x3 1) : IVec S_ 1 :=
  let main_c_5 : IVec S_ 1 := constantI S_ 1 1#1
  let main_v17 : IVec S_ 1 := (fun x v => Host.reduce IntOp.andi x v reducesTo_S4x3_S_d0_1 h_S_) main_v16 main_c_5
  let main_v18 : IVec S_ 1 := andi main_v13 main_v17
  let main_v19 : FVec F S4 .f32 := Host.absf main_arg5
  let main_cst_6 : FVec F S_ .f32 := constant S_ .f32 0x7F800000#32
  let main_v20 : FVec F S4 .f32 := broadcastInDim S4 ![] bcast_S_S4 main_cst_6
  let main_v21 : IVec S4 1 := cmpf .olt main_v19 main_v20
  let main_c_7 : IVec S_ 1 := constantI S_ 1 1#1
  let main_v22 : IVec S_ 1 := (fun x v => Host.reduce IntOp.andi x v reducesTo_S4_S_d0 h_S_) main_v21 main_c_7
  let main_v23 : IVec S_ 1 := andi main_v18 main_v22
  main_v23

def fn {F : FTy → Type} [FloatOps F] (main_arg0 : FVec F S500000x128 .f32) (main_arg1 : IVec S2x16000000 32) (main_arg2 : FVec F S3x128 .f32) (main_arg3 : FVec F S3 .f32) (main_arg4 : FVec F S4x3 .f32) (main_arg5 : FVec F S4 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S3x128 .f32 := Host.absf main_arg2
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S4x3 .f32 := Host.absf main_arg4
  let main_cst_4 : FVec F S_ .f32 := constant S_ .f32 0x7F800000#32
  let main_v15 : FVec F S4x3 .f32 := broadcastInDim S4x3 ![] bcast_S_S4x3 main_cst_4
  let main_v16 : IVec S4x3 1 := cmpf .olt main_v14 main_v15
  fn_part1 (F := F) main_arg5 main_v13 main_v16
-- ==== Kernel.lean ====
abbrev S500000x128 : Shape := ⟨2, ![500000, 128]⟩
abbrev S2x16000000 : Shape := ⟨2, ![2, 16000000]⟩
abbrev S3x128 : Shape := ⟨2, ![3, 128]⟩
abbrev S3 : Shape := ⟨1, ![3]⟩
abbrev S4x3 : Shape := ⟨2, ![4, 3]⟩
abbrev S4 : Shape := ⟨1, ![4]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S128x3 : Shape := ⟨2, ![128, 3]⟩
abbrev S500000x3 : Shape := ⟨2, ![500000, 3]⟩
abbrev S10000x128 : Shape := ⟨2, ![10000, 128]⟩
abbrev S10000x3 : Shape := ⟨2, ![10000, 3]⟩
abbrev S16500000x3 : Shape := ⟨2, ![16500000, 3]⟩
abbrev S1x3 : Shape := ⟨2, ![1, 3]⟩
abbrev S3x4 : Shape := ⟨2, ![3, 4]⟩
abbrev S1x4 : Shape := ⟨2, ![1, 4]⟩
abbrev S500000x4 : Shape := ⟨2, ![500000, 4]⟩
abbrev S5000x3 : Shape := ⟨2, ![5000, 3]⟩
abbrev S5000x4 : Shape := ⟨2, ![5000, 4]⟩

abbrev nBuf : Space → Nat
  | .hbm => 72
  | .vmem => 14
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S3x128, .f32⟩
  | .hbm, ⟨3, _⟩ => ⟨S3, .f32⟩
  | .hbm, ⟨4, _⟩ => ⟨S4x3, .f32⟩
  | .hbm, ⟨5, _⟩ => ⟨S4, .f32⟩
  | .hbm, ⟨6, _⟩ => ⟨S500000, .i32⟩
  | .hbm, ⟨7, _⟩ => ⟨S1x16000000, .i32⟩
  | .hbm, ⟨8, _⟩ => ⟨S16000000, .i32⟩
  | .hbm, ⟨9, _⟩ => ⟨S16500000, .i32⟩
  | .hbm, ⟨10, _⟩ => ⟨S1x16000000, .i32⟩
  | .hbm, ⟨11, _⟩ => ⟨S16000000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S_, .i32⟩
  | .hbm, ⟨31, _⟩ => ⟨S16500000, .i32⟩
  | .hbm, ⟨32, _⟩ => ⟨S16500000, .i1⟩
  | .hbm, ⟨33, _⟩ => ⟨S_, .i32⟩
  | .hbm, ⟨34, _⟩ => ⟨S16500000, .i32⟩
  | .hbm, ⟨35, _⟩ => ⟨S16500000, .i32⟩
  | .hbm, ⟨36, _⟩ => ⟨S16500000, .i32⟩
  | .hbm, ⟨37, _⟩ => ⟨S16500000x1, .i32⟩
  | .hbm, ⟨38, _⟩ => ⟨S16500000, .f32⟩
  | .hbm, ⟨39, _⟩ => ⟨S_, .i32⟩
  | .hbm, ⟨40, _⟩ => ⟨S16500000, .i32⟩
  | .hbm, ⟨41, _⟩ => ⟨S16500000, .i1⟩
  | .hbm, ⟨42, _⟩ => ⟨S_, .i32⟩
  | .hbm, ⟨43, _⟩ => ⟨S16500000, .i32⟩
  | .hbm, ⟨44, _⟩ => ⟨S16500000, .i32⟩
  | .hbm, ⟨45, _⟩ => ⟨S16500000, .i32⟩
  | .hbm, ⟨46, _⟩ => ⟨S16500000x1, .i32⟩
  | .hbm, ⟨47, _⟩ => ⟨S16500000, .f32⟩
  | .hbm, ⟨48, _⟩ => ⟨S16500000, .f32⟩
  | .hbm, ⟨49, _⟩ => ⟨S128x3, .f32⟩
  | .hbm, ⟨50, _⟩ => ⟨S500000x3, .f32⟩
  | .hbm, ⟨51, _⟩ => ⟨S_, .i32⟩
  | .hbm, ⟨52, _⟩ => ⟨S16500000, .i32⟩
  | .hbm, ⟨53, _⟩ => ⟨S16500000, .i1⟩
  | .hbm, ⟨54, _⟩ => ⟨S_, .i32⟩
  | .hbm, ⟨55, _⟩ => ⟨S16500000, .i32⟩
  | .hbm, ⟨56, _⟩ => ⟨S16500000, .i32⟩
  | .hbm, ⟨57, _⟩ => ⟨S16500000, .i32⟩
  | .hbm, ⟨58, _⟩ => ⟨S16500000x1, .i32⟩
  | .hbm, ⟨59, _⟩ => ⟨S16500000x3, .f32⟩
  | .hbm, ⟨60, _⟩ => ⟨S16500000x1, .f32⟩
  | .hbm, ⟨61, _⟩ => ⟨S16500000x3, .f32⟩
  | .hbm, ⟨62, _⟩ => ⟨S16500000x3, .f32⟩
  | .hbm, ⟨63, _⟩ => ⟨S_, .f32⟩
  | .hbm, ⟨64, _⟩ => ⟨S500000x3, .f32⟩
  | .hbm, ⟨65, _⟩ => ⟨S16500000x1, .i32⟩
  | .hbm, ⟨66, _⟩ => ⟨S500000x3, .f32⟩
  | .hbm, ⟨67, _⟩ => ⟨S1x3, .f32⟩
  | .hbm, ⟨68, _⟩ => ⟨S3x4, .f32⟩
  | .hbm, ⟨69, _⟩ => ⟨S1x4, .f32⟩
  | .hbm, ⟨70, _⟩ => ⟨S500000x3, .f32⟩
  | .hbm, ⟨71, _⟩ => ⟨S500000x4, .f32⟩
  | .local _ .vmem, ⟨0, _⟩ => ⟨S10000x128, .f32⟩
  | .local _ .vmem, ⟨1, _⟩ => ⟨S10000x128, .f32⟩
  | .local _ .vmem, ⟨2, _⟩ => ⟨S128x3, .f32⟩
  | .local _ .vmem, ⟨3, _⟩ => ⟨S10000x3, .f32⟩
  | .local _ .vmem, ⟨4, _⟩ => ⟨S10000x3, .f32⟩
  | .local _ .vmem, ⟨5, _⟩ => ⟨S5000x3, .f32⟩
  | .local _ .vmem, ⟨6, _⟩ => ⟨S5000x3, .f32⟩
  | .local _ .vmem, ⟨7, _⟩ => ⟨S1x3, .f32⟩
  | .local _ .vmem, ⟨8, _⟩ => ⟨S3x4, .f32⟩
  | .local _ .vmem, ⟨9, _⟩ => ⟨S1x4, .f32⟩
  | .local _ .vmem, ⟨10, _⟩ => ⟨S5000x3, .f32⟩
  | .local _ .vmem, ⟨11, _⟩ => ⟨S5000x3, .f32⟩
  | .local _ .vmem, ⟨12, _⟩ => ⟨S5000x4, .f32⟩
  | .local _ .vmem, ⟨13, _⟩ => ⟨S5000x4, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50_0 : Ref sig .tc := ⟨.hbm, 70, rfl⟩
abbrev main_v50_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S3x4 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x3 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S5000x4 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  transposes_S3x128_S128x3_1_0 : S3x128.Transposes [1, 0] S128x3
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S10000x3_S10000x3_0_0 : ∀ a, (![0, 0] : Fin 2 → Nat) a + S10000x3.size a ≤ S10000x3.size a
  h_S10000x3 : 0 < S10000x3.numel
  bcast_S16500000x1_S16500000x3_0_1 : S16500000x1.BroadcastsInDim S16500000x3 (![0, 1] : Fin 2 → Fin S16500000x3.rank)
  bcast_S_S500000x3 : S_.BroadcastsInDim S500000x3 (![] : Fin 0 → Fin S500000x3.rank)
  shapeCasts_S3_S1x3 : S3.ShapeCasts S1x3
  transposes_S4x3_S3x4_1_0 : S4x3.Transposes [1, 0] S3x4
  shapeCasts_S4_S1x4 : S4.ShapeCasts S1x4
  inb_S5000x3_S5000x3_0_0 : ∀ a, (![0, 0] : Fin 2 → Nat) a + S5000x3.size a ≤ S5000x3.size a
  h_S5000x3 : 0 < S5000x3.numel
  shapeCasts_S5000x3_S5000x3 : S5000x3.ShapeCasts S5000x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S5000x3 : S1x3.Broadcasts S5000x3
  inb_S3x4_S3x4_0_0 : ∀ a, (![0, 0] : Fin 2 → Nat) a + S3x4.size a ≤ S3x4.size a
  h_S3x4 : 0 < S3x4.numel
  shapeCasts_S3x4_S3x4 : S3x4.ShapeCasts S3x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S10000x128_S128x3_S10000x3_1_0_0_1_n_n_wf : DotDims.WF S10000x128 S128x3 S10000x3 [1] [0] [0] [1] [] []
  gather_S500000x3_S16500000x1_S16500000x3_1_0_n_n_0_1_13_wf : GatherDims.WF S500000x3 S16500000x1 S16500000x3 [1] [0] [] [0] [] 1 ![1, 3]
  scatter_S500000x3_S16500000x1_S16500000x3_1_0_0_1_wf : ScatterDims.WF S500000x3 S16500000x1 S16500000x3 [1] [0] [0] 1
  dot_S5000x3_S3x4_S5000x4_1_0_0_1_n_n_wf : DotDims.WF S5000x3 S3x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S500000x128.size a
  hwx0_0 : ∀ i : grid0.Coords, EltTy.bits .f32 = 32 ∨ (Rect.block (s := S500000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x3.size a ≤ S128x3.size a
  hwx0_1 : ∀ i : grid0.Coords, EltTy.bits .f32 = 32 ∨ (Rect.block (s := S128x3) S128x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x3.size a ≤ S500000x3.size a
  hwx0_2 : ∀ i : grid0.Coords, EltTy.bits .f32 = 32 ∨ (Rect.block (s := S500000x3) S10000x3.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x3.size a ≤ S500000x3.size a
  hwx1_0 : ∀ i : grid1.Coords, EltTy.bits .f32 = 32 ∨ (Rect.block (s := S500000x3) S5000x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3.size a ≤ S1x3.size a
  hwx1_1 : ∀ i : grid1.Coords, EltTy.bits .f32 = 32 ∨ (Rect.block (s := S1x3) S1x3.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S3x4.size a ≤ S3x4.size a
  hwx1_2 : ∀ i : grid1.Coords, EltTy.bits .f32 = 32 ∨ (Rect.block (s := S3x4) S3x4.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4.size a ≤ S1x4.size a
  hwx1_3 : ∀ i : grid1.Coords, EltTy.bits .f32 = 32 ∨ (Rect.block (s := S1x4) S1x4.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x3.size a ≤ S500000x3.size a
  hwx1_4 : ∀ i : grid1.Coords, EltTy.bits .f32 = 32 ∨ (Rect.block (s := S500000x3) S5000x3.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x4.size a ≤ S500000x4.size a
  hwx1_5 : ∀ i : grid1.Coords, EltTy.bits .f32 = 32 ∨ (Rect.block (s := S500000x4) S5000x4.size (cc1_transform_5 i) (hinb1_5 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf
def gather_S500000x3_S16500000x1_S16500000x3_1_0_n_n_0_1_13 : GatherDims S500000x3 S16500000x1 S16500000x3 where
  offsetDims := [1]
  collapsedSliceDims := [0]
  operandBatchingDims := []
  startIndicesBatchingDims := []
  startIndexMap := [0]
  indexVectorDim := 1
  sliceSizes := ![1, 3]
  wf := gather_S500000x3_S16500000x1_S16500000x3_1_0_n_n_0_1_13_wf
def scatter_S500000x3_S16500000x1_S16500000x3_1_0_0_1 : ScatterDims S500000x3 S16500000x1 S16500000x3 where
  updateWindowDims := [1]
  insertedWindowDims := [0]
  scatterDimsToOperandDims := [0]
  indexVectorDim := 1
  wf := scatter_S500000x3_S16500000x1_S16500000x3_1_0_0_1_wf
def dot_S5000x3_S3x4_S5000x4_1_0_0_1_n_n : DotDims S5000x3 S3x4 S5000x4 where
  lhsContracting := [1]
  rhsContracting := [0]
  lhsNonContracting := [0]
  rhsNonContracting := [1]
  lhsBatch := []
  rhsBatch := []
  wf := dot_S5000x3_S3x4_S5000x4_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S128x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S3x4.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S1x4.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50_0) S5000x3.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50_1) S5000x4.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x128 : Shape := ⟨2, ![500000, 128]⟩
abbrev S2x16000000 : Shape := ⟨2, ![2, 16000000]⟩
abbrev S3x128 : Shape := ⟨2, ![3, 128]⟩
abbrev S3 : Shape := ⟨1, ![3]⟩
abbrev S4x3 : Shape := ⟨2, ![4, 3]⟩
abbrev S4 : Shape := ⟨1, ![4]⟩
abbrev S500000 : Shape := ⟨1, ![500000]⟩
abbrev S1x16000000 : Shape := ⟨2, ![1, 16000000]⟩
abbrev S16000000 : Shape := ⟨1, ![16000000]⟩
abbrev S16500000 : Shape := ⟨1, ![16500000]⟩
abbrev S_ : Shape := ⟨0, ![]⟩
abbrev S16500000x1 : Shape := ⟨2, ![16500000, 1]⟩
abbrev S128x3 : Shape := ⟨2, ![128, 3]⟩
abbrev S500000x3 : Shape := ⟨2, ![500000, 3]⟩
abbrev S16500000x3 : Shape := ⟨2, ![16500000, 3]⟩
abbrev S1x3 : Shape := ⟨2, ![1, 3]⟩
abbrev S3x4 : Shape := ⟨2, ![3, 4]⟩
abbrev S500000x4 : Shape := ⟨2, ![500000, 4]⟩
abbrev S1x4 : Shape := ⟨2, ![1, 4]⟩

abbrev nBuf : Space → Nat
  | .hbm => 78
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S2x16000000, .i32⟩
  | .hbm, ⟨2, _⟩ => ⟨S3x128, .f32⟩
  | .hbm, ⟨3, _⟩ => ⟨S3, .f32⟩
  | .hbm, ⟨4, _⟩ => ⟨S4x3, .f32⟩
  | .hbm, ⟨5, _⟩ => ⟨S4, .f32⟩
  | .hbm, ⟨6, _⟩ => ⟨S500000, .i32⟩
  | .hbm, ⟨7, _⟩ => ⟨S1x16000000, .i32⟩
  | .hbm, ⟨8, _⟩ => ⟨S16000000, .i32⟩
  | .hbm, ⟨9, _⟩ => ⟨S16500000, .i32⟩
  | .hbm, ⟨10, _⟩ => ⟨S1x16000000, .i32⟩
  | .hbm, ⟨11, _⟩ => ⟨S16000000, .i32⟩
  | .hbm, ⟨12, _⟩ => ⟨S16500000, .i32⟩
  | .hbm, ⟨13, _⟩ => ⟨S_, .f32⟩
  | .hbm, ⟨14, _⟩ => ⟨S16500000, .f32⟩
  | .hbm, ⟨15, _⟩ => ⟨S_, .f32⟩
  | .hbm, ⟨16, _⟩ => ⟨S500000, .f32⟩
  | .hbm, ⟨17, _⟩ => ⟨S16500000x1, .i32⟩
  | .hbm, ⟨18, _⟩ => ⟨S500000, .f32⟩
  | .hbm, ⟨19, _⟩ => ⟨S_, .f32⟩
  | .hbm, ⟨20, _⟩ => ⟨S500000, .f32⟩
  | .hbm, ⟨21, _⟩ => ⟨S500000, .i1⟩
  | .hbm, ⟨22, _⟩ => ⟨S_, .f32⟩
  | .hbm, ⟨23, _⟩ => ⟨S500000, .f32⟩
  | .hbm, ⟨24, _⟩ => ⟨S500000, .f32⟩
  | .hbm, ⟨25, _⟩ => ⟨S500000, .f32⟩
  | .hbm, ⟨26, _⟩ => ⟨S_, .f32⟩
  | .hbm, ⟨27, _⟩ => ⟨S_, .f32⟩
  | .hbm, ⟨28, _⟩ => ⟨S500000, .f32⟩
  | .hbm, ⟨29, _⟩ => ⟨S500000, .f32⟩
  | .hbm, ⟨30, _⟩ => ⟨S_, .i32⟩
  | .hbm, ⟨31, _⟩ => ⟨S16500000, .i32⟩
  | .hbm, ⟨32, _⟩ => ⟨S16500000, .i1⟩
  | .hbm, ⟨33, _⟩ => ⟨S_, .i32⟩
  | .hbm, ⟨34, _⟩ => ⟨S16500000, .i32⟩
  | .hbm, ⟨35, _⟩ => ⟨S16500000, .i32⟩
  | .hbm, ⟨36, _⟩ => ⟨S16500000, .i32⟩
  | .hbm, ⟨37, _⟩ => ⟨S16500000x1, .i32⟩
  | .hbm, ⟨38, _⟩ => ⟨S16500000, .f32⟩
  | .hbm, ⟨39, _⟩ => ⟨S_, .i32⟩
  | .hbm, ⟨40, _⟩ => ⟨S16500000, .i32⟩
  | .hbm, ⟨41, _⟩ => ⟨S16500000, .i1⟩
  | .hbm, ⟨42, _⟩ => ⟨S_, .i32⟩
  | .hbm, ⟨43, _⟩ => ⟨S16500000, .i32⟩
  | .hbm, ⟨44, _⟩ => ⟨S16500000, .i32⟩
  | .hbm, ⟨45, _⟩ => ⟨S16500000, .i32⟩
  | .hbm, ⟨46, _⟩ => ⟨S16500000x1, .i32⟩
  | .hbm, ⟨47, _⟩ => ⟨S16500000, .f32⟩
  | .hbm, ⟨48, _⟩ => ⟨S16500000, .f32⟩
  | .hbm, ⟨49, _⟩ => ⟨S128x3, .f32⟩
  | .hbm, ⟨50, _⟩ => ⟨S500000x3, .f32⟩
  | .hbm, ⟨51, _⟩ => ⟨S_, .i32⟩
  | .hbm, ⟨52, _⟩ => ⟨S16500000, .i32⟩
  | .hbm, ⟨53, _⟩ => ⟨S16500000, .i1⟩
  | .hbm, ⟨54, _⟩ => ⟨S_, .i32⟩
  | .hbm, ⟨55, _⟩ => ⟨S16500000, .i32⟩
  | .hbm, ⟨56, _⟩ => ⟨S16500000, .i32⟩
  | .hbm, ⟨57, _⟩ => ⟨S16500000, .i32⟩
  | .hbm, ⟨58, _⟩ => ⟨S16500000x1, .i32⟩
  | .hbm, ⟨59, _⟩ => ⟨S16500000x3, .f32⟩
  | .hbm, ⟨60, _⟩ => ⟨S16500000x1, .f32⟩
  | .hbm, ⟨61, _⟩ => ⟨S16500000x3, .f32⟩
  | .hbm, ⟨62, _⟩ => ⟨S16500000x3, .f32⟩
  | .hbm, ⟨63, _⟩ => ⟨S_, .f32⟩
  | .hbm, ⟨64, _⟩ => ⟨S500000x3, .f32⟩
  | .hbm, ⟨65, _⟩ => ⟨S16500000x1, .i32⟩
  | .hbm, ⟨66, _⟩ => ⟨S500000x3, .f32⟩
  | .hbm, ⟨67, _⟩ => ⟨S1x3, .f32⟩
  | .hbm, ⟨68, _⟩ => ⟨S500000x3, .f32⟩
  | .hbm, ⟨69, _⟩ => ⟨S500000x3, .f32⟩
  | .hbm, ⟨70, _⟩ => ⟨S_, .f32⟩
  | .hbm, ⟨71, _⟩ => ⟨S500000x3, .f32⟩
  | .hbm, ⟨72, _⟩ => ⟨S500000x3, .f32⟩
  | .hbm, ⟨73, _⟩ => ⟨S3x4, .f32⟩
  | .hbm, ⟨74, _⟩ => ⟨S500000x4, .f32⟩
  | .hbm, ⟨75, _⟩ => ⟨S1x4, .f32⟩
  | .hbm, ⟨76, _⟩ => ⟨S500000x4, .f32⟩
  | .hbm, ⟨77, _⟩ => ⟨S500000x4, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_call1_cst : Ref sig .tc := ⟨.hbm, 70, rfl⟩
abbrev main_call1_v0 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  concatenates_S16000000_S500000_S16500000_d0 : Shape.Concatenates [S16000000, S500000] S16500000 0
  slices_S2x16000000_S1x16000000_1_0 : S2x16000000.Slices ![1, 0] S1x16000000
  bcast_S_S16500000 : S_.BroadcastsInDim S16500000 (![] : Fin 0 → Fin S16500000.rank)
  bcast_S_S500000 : S_.BroadcastsInDim S500000 (![] : Fin 0 → Fin S500000.rank)
  bcast_S16500000_S16500000x1_0 : S16500000.BroadcastsInDim S16500000x1 (![0] : Fin 1 → Fin S16500000x1.rank)
  transposes_S3x128_S128x3_1_0 : S3x128.Transposes [1, 0] S128x3
  bcast_S16500000x1_S16500000x3_0_1 : S16500000x1.BroadcastsInDim S16500000x3 (![0, 1] : Fin 2 → Fin S16500000x3.rank)
  bcast_S_S500000x3 : S_.BroadcastsInDim S500000x3 (![] : Fin 0 → Fin S500000x3.rank)
  bcast_S3_S1x3_1 : S3.BroadcastsInDim S1x3 (![1] : Fin 1 → Fin S1x3.rank)
  bcast_S1x3_S500000x3_0_1 : S1x3.BroadcastsInDim S500000x3 (![0, 1] : Fin 2 → Fin S500000x3.rank)
  transposes_S4x3_S3x4_1_0 : S4x3.Transposes [1, 0] S3x4
  bcast_S4_S1x4_1 : S4.BroadcastsInDim S1x4 (![1] : Fin 1 → Fin S1x4.rank)
  bcast_S1x4_S500000x4_0_1 : S1x4.BroadcastsInDim S500000x4 (![0, 1] : Fin 2 → Fin S500000x4.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x128_S128x3_S500000x3_1_0_0_1_n_n_wf : DotDims.WF S500000x128 S128x3 S500000x3 [1] [0] [0] [1] [] []
  gather_S500000x3_S16500000x1_S16500000x3_1_0_n_n_0_1_13_wf : GatherDims.WF S500000x3 S16500000x1 S16500000x3 [1] [0] [] [0] [] 1 ![1, 3]
  scatter_S500000x3_S16500000x1_S16500000x3_1_0_0_1_wf : ScatterDims.WF S500000x3 S16500000x1 S16500000x3 [1] [0] [0] 1
  dot_S500000x3_S3x4_S500000x4_1_0_0_1_n_n_wf : DotDims.WF S500000x3 S3x4 S500000x4 [1] [0] [0] [1] [] []

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x128_S128x3_S500000x3_1_0_0_1_n_n : DotDims S500000x128 S128x3 S500000x3 where
  lhsContracting := [1]
  rhsContracting := [0]
  lhsNonContracting := [0]
  rhsNonContracting := [1]
  lhsBatch := []
  rhsBatch := []
  wf := dot_S500000x128_S128x3_S500000x3_1_0_0_1_n_n_wf
def gather_S500000x3_S16500000x1_S16500000x3_1_0_n_n_0_1_13 : GatherDims S500000x3 S16500000x1 S16500000x3 where
  offsetDims := [1]
  collapsedSliceDims := [0]
  operandBatchingDims := []
  startIndicesBatchingDims := []
  startIndexMap := [0]
  indexVectorDim := 1
  sliceSizes := ![1, 3]
  wf := gather_S500000x3_S16500000x1_S16500000x3_1_0_n_n_0_1_13_wf
def scatter_S500000x3_S16500000x1_S16500000x3_1_0_0_1 : ScatterDims S500000x3 S16500000x1 S16500000x3 where
  updateWindowDims := [1]
  insertedWindowDims := [0]
  scatterDimsToOperandDims := [0]
  indexVectorDim := 1
  wf := scatter_S500000x3_S16500000x1_S16500000x3_1_0_0_1_wf
def dot_S500000x3_S3x4_S500000x4_1_0_0_1_n_n : DotDims S500000x3 S3x4 S500000x4 where
  lhsContracting := [1]
  rhsContracting := [0]
  lhsNonContracting := [0]
  rhsNonContracting := [1]
  lhsBatch := []
  rhsBatch := []
  wf := dot_S500000x3_S3x4_S500000x4_1_0_0_1_n_n_wf

class Facts : Prop extends Facts₀ where

variable [Facts]
-- ==== Proof.KernelRun.lean ====
/-
  The idealized kernel's run with its two results read: every weakly fair execution of its `main` terminates,
  faults nowhere, leaves the six argument arrays as they were, and leaves each of the two result arrays at what
  the chain of host operations and the two launches puts there — the contents of the last boundary of that chain
  (`Gen.W6`: the second launch's arrays at what its write-backs leave, everything else as the launch found it).

  The frame certificate of the program proves exactly this run and then keeps only the argument arrays. The
  statement here keeps the two result buffers as well; they are unscoped buffers like the arguments, and the last
  thread state holds every unscoped buffer at that boundary's contents.
-/
import proofs.«153581_j69269232549994_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both results and all six arguments read off the last boundary's contents. -/
theorem run : θ_run defs (onTc (τ := τ) (main (F := F))) ⟨m, fun _ => 0, ρ⟩ (fun r => ∀ c : Dev nD,
      r.2.mem ((c.tc : Thread nD τ).loc main_v50_0) = W6 m ρ c (Proc.devRef .tc main_v50_0)
      ∧ r.2.mem ((c.tc : Thread nD τ).loc main_v50_1) = W6 m ρ c (Proc.devRef .tc main_v50_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50_0 (by decide)),
       h c _ (mem_uc main_v50_1 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.Results

end
-- ==== Proof.LibContractPlain.lean ====
/-
  The plain product of an M×K matrix by a K×N matrix, read at one entry, at the ideal values.

  A kernel's matrix unit accumulates the product into a splat of zeros; the host's product has no accumulator.
  Both, read at entry (a, b), are the sum over the contracted coordinate c of A (a, c) · B (c, b): a finite sum
  on the extended reals, with no rounding and no order of summation left in it.

  The dimension record is a parameter with an equation to the library's canonical plain record, so that a printed
  program's own record (the same six lists under another name) is accepted with `rfl`.
-/
import Idealize.ShloMosaic.Lib.StackMember

noncomputable section

namespace Cert.Lib.ContractPlain

open Idealize.ShloMosaic Idealize.ShloMosaic.ValueIdx

/-- The host's product of an M×K by a K×N matrix, read at (a, b), is the sum over c of A (a, c) · B (c, b). -/
theorem hostDot_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    Host.dotGeneral D prec A B (ix2 a b) = ∑ c : Fin K, A (ix2 a c) * B (ix2 c b) := by
  subst hD
  exact StackMember.dotGeneral_plain_apply prec A B a b

/-- A kernel's product of an M×K by a K×N matrix accumulated into the zero splat, read at (a, b), is the same sum:
    the accumulator contributes `0 + ·`. -/
theorem matmulZero_apply {M K N : Nat} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant (F := Ideal) ⟨2, ![M, N]⟩ .f32 0x00000000#32) (ix2 a b)
      = ∑ c : Fin K, A (ix2 a c) * B (ix2 c b) := by
  rw [matmul_zero_eq_dotGeneral]
  exact hostDot_apply D hD prec A B a b

end Cert.Lib.ContractPlain

end
-- ==== Proof.Gcn.lean ====
/-
  A two-layer graph convolution, entry by entry, on the extended reals.

  Node features `x` (500000 nodes, 128 features each) go through a first weight matrix to three channels per
  node; the three channels are then averaged over the graph's edges (a gather by the edge's source, a scaling by
  the symmetric degree normalisation, a scatter-add by the edge's target); a bias is added and the negative part
  cut off; and a second weight matrix with its bias takes the three channels to four outputs.

  The three arithmetic stages that are NOT the graph aggregation are stated here as functions of arrays read at
  coordinates. Every sum is a finite sum of products on the extended reals: no order of summation, no rounding and
  no format is left in it. The weight matrices enter already transposed (128 × 3 and 3 × 4), which is how both
  programs hold them when they multiply. The zero the negative part is cut at is kept as the 32-bit word
  `0x00000000`: both programs carry that same word, so it is never evaluated.
-/
import Idealize.ShloMosaic.PureOps.Ideal
import Idealize.ShloMosaic.Lib.ValueIdx

noncomputable section

namespace Cert.Gcn

open Idealize.ShloMosaic Idealize.ShloMosaic.ValueIdx
open scoped BigOperators

/-- The first layer's product: channel `f` of node `n` is the sum over the 128 features `d` of
    `x (n, d) · wT (d, f)`. -/
def lin (x : FVec Ideal ⟨2, ![500000, 128]⟩ .f32) (wT : FVec Ideal ⟨2, ![128, 3]⟩ .f32) :
    FVec Ideal ⟨2, ![500000, 3]⟩ .f32 :=
  fun i => ∑ d : Fin 128, x (ix2 (i 0 : Fin 500000) d) * wT (ix2 d (i 1 : Fin 3))

theorem lin_apply (x : FVec Ideal ⟨2, ![500000, 128]⟩ .f32) (wT : FVec Ideal ⟨2, ![128, 3]⟩ .f32)
    (n : Fin 500000) (f : Fin 3) : lin x wT (ix2 n f) = ∑ d : Fin 128, x (ix2 n d) * wT (ix2 d f) := rfl

/-- The hidden layer: the aggregated channel plus its bias, cut off below at zero. -/
def hidden (agg : FVec Ideal ⟨2, ![500000, 3]⟩ .f32) (b : FVec Ideal ⟨1, ![3]⟩ .f32) :
    FVec Ideal ⟨2, ![500000, 3]⟩ .f32 :=
  fun i => max (agg i + b (ix1 (i 1 : Fin 3))) (Ideal.ofBits .f32 0x00000000#32)

theorem hidden_apply (agg : FVec Ideal ⟨2, ![500000, 3]⟩ .f32) (b : FVec Ideal ⟨1, ![3]⟩ .f32)
    (n : Fin 500000) (f : Fin 3) :
    hidden agg b (ix2 n f) = max (agg (ix2 n f) + b (ix1 f)) (Ideal.ofBits .f32 0x00000000#32) := rfl

/-- The output layer: output `o` of node `n` is the sum over the three hidden channels `k` of
    `h (n, k) · woT (k, o)`, plus the output bias of `o`. -/
def out (h : FVec Ideal ⟨2, ![500000, 3]⟩ .f32) (woT : FVec Ideal ⟨2, ![3, 4]⟩ .f32) (ob : FVec Ideal ⟨1, ![4]⟩ .f32) :
    FVec Ideal ⟨2, ![500000, 4]⟩ .f32 :=
  fun i => (∑ k : Fin 3, h (ix2 (i 0 : Fin 500000) k) * woT (ix2 k (i 1 : Fin 4))) + ob (ix1 (i 1 : Fin 4))

theorem out_apply (h : FVec Ideal ⟨2, ![500000, 3]⟩ .f32) (woT : FVec Ideal ⟨2, ![3, 4]⟩ .f32)
    (ob : FVec Ideal ⟨1, ![4]⟩ .f32) (n : Fin 500000) (o : Fin 4) :
    out h woT ob (ix2 n o) = (∑ k : Fin 3, h (ix2 n k) * woT (ix2 k o)) + ob (ix1 o) := rfl

end Cert.Gcn

end
-- ==== Proof.Linear.lean ====
/-
  The first layer as the kernel computes it: the whole array the first launch leaves.

  The launch walks the 500000 rows of `x` in 50 blocks of 10000 rows. At block `t` the body multiplies the
  10000 × 128 block of `x` by the whole 128 × 3 weight matrix on the matrix unit, accumulating into zeros, and
  writes the 10000 × 3 product back as rows `10000·t … 10000·t + 9999` of the result. The narrowing of both
  factors to a 16-bit format before the product is the identity on the extended reals, and the product into a
  zero accumulator is the plain sum over the 128 features. Row `r` of the result is therefore written exactly
  once, by block `r / 10000`, with the sum over `d` of `x (r, d) · wT (d, f)`: the array ends as `Gcn.lin`
  of the two arrays the launch found, whatever those are.
-/
import proofs.«153581_j69269232549994_2_alg».proof.Proof.Gen.KernelIdeal.Frame
import proofs.«153581_j69269232549994_2_alg».proof.Proof.LibContractPlain
import proofs.«153581_j69269232549994_2_alg».proof.Proof.Gcn
import Idealize.ShloMosaic.Lib.ValueIdx
import Idealize.ShloMosaic.Lib.Pipeline.Value

noncomputable section

namespace Cert.KernelIdeal.Linear

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The offsets of a whole-block access are all zero. -/
theorem zeros2 : (![0, 0] : Fin 2 → Nat) = fun _ => 0 := funext fun a => by fin_cases a <;> rfl

/-- One entry of the body's product: the sum over the 128 features of the two loaded blocks' entries. -/
theorem body_apply (x0 : Vec Ideal S10000x128 .f32) (x1 : Vec Ideal S128x3 .f32) (p : Fin 10000) (q : Fin 3) :
    k0_pay1 (F := Ideal) x0 x1 (ix2 p q) = ∑ d : Fin 128, x0 (ix2 p d) * x1 (ix2 d q) := by
  show matmul dot_S10000x128_S128x3_S10000x3_1_0_0_1_n_n none x0 (shapeCast S128x3 x1 shapeCasts_S128x3_S128x3)
      (constant (F := Ideal) S10000x3 .f32 0x00000000#32) (ix2 p q) = _
  rw [shapeCast_self]
  exact Cert.Lib.ContractPlain.matmulZero_apply _ rfl none x0 x1 p q

/-- Where the three windows' blocks sit at grid point `t`: the feature block and the result block on block-row
    `t`, the weight matrix whole. -/
theorem block_at : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What grid point `t` writes back is block-row `t` of `Gcn.lin` of the two arrays the launch found. -/
theorem flushed_eq (c : Dev nD) (t : Fin cfg0.N) :
    (dat0 V c).flushed 2 t
      = ((cfg0.win 2).blk t).view.read (Elt Ideal) (Gcn.lin (V c main_arg0) (V c main_v32)) := by
  show (cfg0.win 2).cut (grid0.coords t) ((dat0 V c).after 2 t) = _
  rw [after0_2]
  unfold out0_2
  rw [View.canon_unit_zero zeros2]
  simp only [View.ld_unit_zero (S := S10000x128) zeros2, View.ld_unit_zero (S := S128x3) zeros2]
  obtain ⟨e0, e1, e2, e3, e4, e5⟩ := block_at t
  funext j
  show k0_pay1 (F := Ideal) (iblk0 V c 0 t) (iblk0 V c 1 t) j
      = Gcn.lin (V c main_arg0) (V c main_v32) (((cfg0.win 2).blk t).view.emb j)
  refine (congrArg (k0_pay1 (F := Ideal) (iblk0 V c 0 t) (iblk0 V c 1 t)) (eq_ix2 j)).trans ?_
  refine (body_apply (iblk0 V c 0 t) (iblk0 V c 1 t) (j 0) (j 1)).trans ?_
  simp only [Gcn.lin]
  refine Finset.sum_congr rfl fun d _ => ?_
  congr 1
  · show V c main_arg0 (((cfg0.win 0).blk t).view.emb (ix2 (j 0) d)) = V c main_arg0 _
    refine congrArg _ (funext fun a => Fin.ext ?_)
    match a with
    | ⟨0, _⟩ =>
      show win0_0.index t (0 : Fin 2) * 10000 + 1 * (j 0).val = win0_2.index t (0 : Fin 2) * 10000 + 1 * (j 0).val
      omega
    | ⟨1, _⟩ =>
      show win0_0.index t (1 : Fin 2) * 128 + 1 * d.val = d.val
      omega
  · show V c main_v32 (((cfg0.win 1).blk t).view.emb (ix2 d (j 1))) = V c main_v32 _
    refine congrArg _ (funext fun a => Fin.ext ?_)
    match a with
    | ⟨0, _⟩ =>
      show win0_1.index t (0 : Fin 2) * 128 + 1 * d.val = d.val
      omega
    | ⟨1, _⟩ =>
      show win0_1.index t (1 : Fin 2) * 3 + 1 * (j 1).val = win0_2.index t (1 : Fin 2) * 3 + 1 * (j 1).val
      omega

/-- An index of the result is in grid point `t`'s block iff each coordinate is in the block's range. -/
theorem mem_block (t : Fin cfg0.N) (i : S500000x3.Idx) :
    i ∈ ((cfg0.win 2).blk t).view.set ↔ ∀ a : Fin 2, win0_2.index t a * S10000x3.size a ≤ (i a).val
      ∧ (i a).val < win0_2.index t a * S10000x3.size a + S10000x3.size a := by
  show i ∈ ((View.whole main_v33).slice (win0_2.rect t)).set ↔ _
  rw [View.set_slice_whole, Rect.mem_set_unit]
  exact Iff.rfl

/-- Every entry of the result is written by some grid point: row `r` by block `r / 10000`. -/
theorem covered (i : S500000x3.Idx) :
    ∃ t : Fin cfg0.N, (cfg0.win 2).flush t = true ∧ i ∈ ((cfg0.win 2).blk t).view.set := by
  have hi0 : (i 0).val < 500000 := (i 0).isLt
  have hi1 : (i 1).val < 3 := (i 1).isLt
  refine ⟨⟨(i 0).val / 10000, by show (i 0).val / 10000 < 50; omega⟩, flush0_2 _, ?_⟩
  rw [mem_block]
  obtain ⟨-, -, -, -, e4, e5⟩ := block_at ⟨(i 0).val / 10000, by show (i 0).val / 10000 < 50; omega⟩
  have e4' : win0_2.index ⟨(i 0).val / 10000, by show (i 0).val / 10000 < 50; omega⟩ (0 : Fin 2) = (i 0).val / 10000 := e4
  intro a
  match a with
  | ⟨0, _⟩ =>
    show win0_2.index _ (0 : Fin 2) * 10000 ≤ (i 0).val ∧ (i 0).val < win0_2.index _ (0 : Fin 2) * 10000 + 10000
    omega
  | ⟨1, _⟩ =>
    show win0_2.index _ (1 : Fin 2) * 3 ≤ (i 1).val ∧ (i 1).val < win0_2.index _ (1 : Fin 2) * 3 + 3
    omega

/-- THE ARRAY the first launch leaves: `Gcn.lin` of the feature array and the transposed weight matrix as the
    launch found them. -/
theorem array_eq (c : Dev nD) :
    (dat0 V c).arrAt 2 cfg0.N = Gcn.lin (V c main_arg0) (V c main_v32) :=
  (dat0 V c).arrAt_eq_of_cover 2 (Gcn.lin (V c main_arg0) (V c main_v32)) (fun t _ => flushed_eq V c t) (covered)

end

end Cert.KernelIdeal.Linear

end
-- ==== Proof.ReluLinear.lean ====
/-
  The hidden and the output layer as the kernel computes them: the two arrays the second launch leaves.

  The launch walks the 500000 rows of the aggregated channels in 100 blocks of 5000 rows. It holds the first bias
  as a 1 × 3 row, the second weight matrix transposed (3 × 4) and the second bias as a 1 × 4 row, each whole at
  every grid point. At block `t` the body adds the bias row to every row of the block and cuts the sum off below
  at zero — the hidden block, written back as rows `5000·t …` of the first result —, then multiplies the hidden
  block by the 3 × 4 matrix on the matrix unit into zeros and adds the second bias row — the output block,
  written back as the same rows of the second result. Narrowing a factor to a 16-bit format is the identity on
  the extended reals and the product into a zero accumulator is the plain sum over the three channels, so each
  entry of either result is written once, by block `r / 5000`, with the value the two functions below name.
-/
import proofs.«153581_j69269232549994_2_alg».proof.Proof.Gen.KernelIdeal.Frame
import proofs.«153581_j69269232549994_2_alg».proof.Proof.LibContractPlain
import proofs.«153581_j69269232549994_2_alg».proof.Proof.Gcn
import Idealize.ShloMosaic.Lib.ValueIdx
import Idealize.ShloMosaic.Lib.ValueLayout
import Idealize.ShloMosaic.Lib.Pipeline.Value

noncomputable section

namespace Cert.KernelIdeal.ReluLinear

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-- The offsets of a whole-block access are all zero. -/
theorem zeros2 : (![0, 0] : Fin 2 → Nat) = fun _ => 0 := funext fun a => by fin_cases a <;> rfl

/-! ## The two layers with each bias held as a one-row matrix -/

/-- The hidden layer with the bias a 1 × 3 row: channel plus the row's entry of that channel, cut off at zero. -/
def hiddenRow (agg : FVec Ideal ⟨2, ![500000, 3]⟩ .f32) (brow : FVec Ideal ⟨2, ![1, 3]⟩ .f32) :
    FVec Ideal ⟨2, ![500000, 3]⟩ .f32 :=
  fun i => max (agg i + brow (ix2 (0 : Fin 1) (i 1 : Fin 3))) (Ideal.ofBits .f32 0x00000000#32)

theorem hiddenRow_apply (agg : FVec Ideal ⟨2, ![500000, 3]⟩ .f32) (brow : FVec Ideal ⟨2, ![1, 3]⟩ .f32)
    (n : Fin 500000) (f : Fin 3) :
    hiddenRow agg brow (ix2 n f)
      = max (agg (ix2 n f) + brow (ix2 (0 : Fin 1) f)) (Ideal.ofBits .f32 0x00000000#32) := rfl

/-- The output layer with the bias a 1 × 4 row. -/
def outRow (h : FVec Ideal ⟨2, ![500000, 3]⟩ .f32) (woT : FVec Ideal ⟨2, ![3, 4]⟩ .f32)
    (obrow : FVec Ideal ⟨2, ![1, 4]⟩ .f32) : FVec Ideal ⟨2, ![500000, 4]⟩ .f32 :=
  fun i => (∑ k : Fin 3, h (ix2 (i 0 : Fin 500000) k) * woT (ix2 k (i 1 : Fin 4)))
    + obrow (ix2 (0 : Fin 1) (i 1 : Fin 4))

theorem outRow_apply (h : FVec Ideal ⟨2, ![500000, 3]⟩ .f32) (woT : FVec Ideal ⟨2, ![3, 4]⟩ .f32)
    (obrow : FVec Ideal ⟨2, ![1, 4]⟩ .f32) (n : Fin 500000) (o : Fin 4) :
    outRow h woT obrow (ix2 n o)
      = (∑ k : Fin 3, h (ix2 n k) * woT (ix2 k o)) + obrow (ix2 (0 : Fin 1) o) := rfl

/-! ## One entry of each of the body's two stored values -/

/-- The hidden block at (p, q): the loaded block's entry plus the bias row's entry of column q, cut off at zero. -/
theorem hidden_body_apply (v0 : Vec Ideal S5000x3 .f32) (v2 : Vec Ideal S1x3 .f32) (p : Fin 5000) (q : Fin 3) :
    k1_pay1 (F := Ideal) v0 v2 (ix2 p q)
      = max (v0 (ix2 p q) + v2 (ix2 (0 : Fin 1) q)) (Ideal.ofBits .f32 0x00000000#32) := by
  show max (shapeCast S5000x3 v0 shapeCasts_S5000x3_S5000x3 (ix2 p q)
      + broadcastTo S5000x3 (shapeCast S1x3 v2 shapeCasts_S1x3_S1x3) broadcasts_S1x3_S5000x3 (ix2 p q))
      (Ideal.ofBits .f32 0x00000000#32) = _
  rw [shapeCast_self, shapeCast_self, broadcastTo_1b_ab_apply]

/-- The output block at (p, o): the sum over the three channels of the hidden block's entry times the matrix's,
    plus the second bias row's entry of column o. -/
theorem out_body_apply (v0 : Vec Ideal S5000x3 .f32) (v2 : Vec Ideal S1x3 .f32) (v10 : Vec Ideal S3x4 .f32)
    (v14 : Vec Ideal S1x4 .f32) (p : Fin 5000) (o : Fin 4) :
    k1_pay2 (F := Ideal) v0 v2 v10 v14 (ix2 p o)
      = (∑ k : Fin 3, k1_pay1 (F := Ideal) v0 v2 (ix2 p k) * v10 (ix2 k o)) + v14 (ix2 (0 : Fin 1) o) := by
  show matmul (φ₁ := .bf16) (φ₂ := .bf16) dot_S5000x3_S3x4_S5000x4_1_0_0_1_n_n none (k1_pay1 (F := Ideal) v0 v2)
        (shapeCast S3x4 v10 shapeCasts_S3x4_S3x4) (constant (F := Ideal) S5000x4 .f32 0x00000000#32) (ix2 p o)
      + broadcastTo S5000x4 (shapeCast S1x4 v14 shapeCasts_S1x4_S1x4) broadcasts_S1x4_S5000x4 (ix2 p o) = _
  rw [shapeCast_self, shapeCast_self, broadcastTo_1b_ab_apply]
  exact congrArg (fun z => z + v14 (ix2 (0 : Fin 1) o))
    (Cert.Lib.ContractPlain.matmulZero_apply (φ₁ := .bf16) (φ₂ := .bf16) dot_S5000x3_S3x4_S5000x4_1_0_0_1_n_n rfl none
      (k1_pay1 (F := Ideal) v0 v2) v10 p o)

/-! ## Where the blocks sit -/

/-- At grid point `t`: the aggregated block and both result blocks on block-row `t`; the two bias rows and the
    weight matrix whole. -/
theorem block_at : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

section
variable (V : (c : Dev nD) → (b : Ref sig .tc) → Buf (Elt Ideal) ((c : Thread nD τ).loc b))

/-- The aggregated block's entry (p, k) at grid point `t` is the array's entry of row `5000·t + p`. -/
theorem read_agg (c : Dev nD) (t : Fin cfg1.N) (p : Fin 5000) (k : Fin 3) (n : Fin 500000)
    (hn : n.val = t.val * 5000 + p.val) : iblk1 V c 0 t (ix2 p k) = V c main_v46 (ix2 n k) := by
  obtain ⟨e0, e1, -⟩ := block_at t
  show V c main_v46 (((cfg1.win 0).blk t).view.emb (ix2 p k)) = _
  refine congrArg _ (funext fun a => Fin.ext ?_)
  match a with
  | ⟨0, _⟩ => show win1_0.index t (0 : Fin 2) * 5000 + 1 * p.val = n.val; omega
  | ⟨1, _⟩ => show win1_0.index t (1 : Fin 2) * 3 + 1 * k.val = k.val; omega

/-- The first bias row is read whole at every grid point. -/
theorem read_bias (c : Dev nD) (t : Fin cfg1.N) (k : Fin 3) :
    iblk1 V c 1 t (ix2 (0 : Fin 1) k) = V c main_v47 (ix2 (0 : Fin 1) k) := by
  obtain ⟨-, -, e2, e3, -⟩ := block_at t
  show V c main_v47 (((cfg1.win 1).blk t).view.emb (ix2 (0 : Fin 1) k)) = _
  refine congrArg _ (funext fun a => Fin.ext ?_)
  match a with
  | ⟨0, _⟩ => show win1_1.index t (0 : Fin 2) * 1 + 1 * 0 = 0; omega
  | ⟨1, _⟩ => show win1_1.index t (1 : Fin 2) * 3 + 1 * k.val = k.val; omega

/-- The transposed second weight matrix is read whole at every grid point. -/
theorem read_weight (c : Dev nD) (t : Fin cfg1.N) (k : Fin 3) (o : Fin 4) :
    iblk1 V c 2 t (ix2 k o) = V c main_v48 (ix2 k o) := by
  obtain ⟨-, -, -, -, e4, e5, -⟩ := block_at t
  show V c main_v48 (((cfg1.win 2).blk t).view.emb (ix2 k o)) = _
  refine congrArg _ (funext fun a => Fin.ext ?_)
  match a with
  | ⟨0, _⟩ => show win1_2.index t (0 : Fin 2) * 3 + 1 * k.val = k.val; omega
  | ⟨1, _⟩ => show win1_2.index t (1 : Fin 2) * 4 + 1 * o.val = o.val; omega

/-- The second bias row is read whole at every grid point. -/
theorem read_outBias (c : Dev nD) (t : Fin cfg1.N) (o : Fin 4) :
    iblk1 V c 3 t (ix2 (0 : Fin 1) o) = V c main_v49 (ix2 (0 : Fin 1) o) := by
  obtain ⟨-, -, -, -, -, -, e6, e7, -⟩ := block_at t
  show V c main_v49 (((cfg1.win 3).blk t).view.emb (ix2 (0 : Fin 1) o)) = _
  refine congrArg _ (funext fun a => Fin.ext ?_)
  match a with
  | ⟨0, _⟩ => show win1_3.index t (0 : Fin 2) * 1 + 1 * 0 = 0; omega
  | ⟨1, _⟩ => show win1_3.index t (1 : Fin 2) * 4 + 1 * o.val = o.val; omega

/-- The body's hidden block at grid point `t`, entry (p, k), is `hiddenRow` of the two arrays at row `5000·t + p`. -/
theorem hidden_point (c : Dev nD) (t : Fin cfg1.N) (p : Fin 5000) (k : Fin 3) (n : Fin 500000)
    (hn : n.val = t.val * 5000 + p.val) :
    k1_pay1 (F := Ideal) (iblk1 V c 0 t) (iblk1 V c 1 t) (ix2 p k)
      = hiddenRow (V c main_v46) (V c main_v47) (ix2 n k) := by
  refine (hidden_body_apply (iblk1 V c 0 t) (iblk1 V c 1 t) p k).trans ?_
  rw [read_agg V c t p k n hn, read_bias V c t k]
  rfl

/-- The body's output block at grid point `t`, entry (p, o), is `outRow` of the hidden layer and the two arrays at
    row `5000·t + p`. -/
theorem out_point (c : Dev nD) (t : Fin cfg1.N) (p : Fin 5000) (o : Fin 4) (n : Fin 500000)
    (hn : n.val = t.val * 5000 + p.val) :
    k1_pay2 (F := Ideal) (iblk1 V c 0 t) (iblk1 V c 1 t) (iblk1 V c 2 t) (iblk1 V c 3 t) (ix2 p o)
      = outRow (hiddenRow (V c main_v46) (V c main_v47)) (V c main_v48) (V c main_v49) (ix2 n o) := by
  refine (out_body_apply (iblk1 V c 0 t) (iblk1 V c 1 t) (iblk1 V c 2 t) (iblk1 V c 3 t) p o).trans ?_
  rw [read_outBias V c t o]
  refine congrArg (fun z => z + V c main_v49 (ix2 (0 : Fin 1) o)) ?_
  refine Finset.sum_congr rfl fun k _ => ?_
  rw [hidden_point V c t p k n hn, read_weight V c t k o]

/-- What grid point `t` writes back to the first result is block-row `t` of the hidden layer. -/
theorem flushed_hidden (c : Dev nD) (t : Fin cfg1.N) :
    (dat1 V c).flushed 4 t
      = ((cfg1.win 4).blk t).view.read (Elt Ideal) (hiddenRow (V c main_v46) (V c main_v47)) := by
  show (cfg1.win 4).cut (grid1.coords t) ((dat1 V c).after 4 t) = _
  rw [after1_4]
  unfold out1_4
  rw [View.canon_unit_zero zeros2]
  simp only [View.ld_unit_zero (S := S5000x3) zeros2, View.ld_unit_zero (S := S1x3) zeros2]
  obtain ⟨-, -, -, -, -, -, -, -, e8, e9, -⟩ := block_at t
  funext j
  show k1_pay1 (F := Ideal) (iblk1 V c 0 t) (iblk1 V c 1 t) j
      = hiddenRow (V c main_v46) (V c main_v47) (((cfg1.win 4).blk t).view.emb j)
  refine (congrArg (k1_pay1 (F := Ideal) (iblk1 V c 0 t) (iblk1 V c 1 t)) (eq_ix2 j)).trans ?_
  refine (hidden_point V c t (j 0) (j 1) ((((cfg1.win 4).blk t).view.emb j) 0) ?_).trans ?_
  · show win1_4.index t (0 : Fin 2) * 5000 + 1 * (j 0).val = t.val * 5000 + (j 0).val
    omega
  · refine congrArg (hiddenRow (V c main_v46) (V c main_v47)) (funext fun a => Fin.ext ?_)
    match a with
    | ⟨0, _⟩ => rfl
    | ⟨1, _⟩ =>
      show (j 1).val = win1_4.index t (1 : Fin 2) * 3 + 1 * (j 1).val
      omega

/-- What grid point `t` writes back to the second result is block-row `t` of the output layer. -/
theorem flushed_out (c : Dev nD) (t : Fin cfg1.N) :
    (dat1 V c).flushed 5 t
      = ((cfg1.win 5).blk t).view.read (Elt Ideal)
          (outRow (hiddenRow (V c main_v46) (V c main_v47)) (V c main_v48) (V c main_v49)) := by
  show (cfg1.win 5).cut (grid1.coords t) ((dat1 V c).after 5 t) = _
  rw [after1_5]
  unfold out1_5
  rw [View.canon_unit_zero zeros2]
  simp only [View.ld_unit_zero (S := S5000x3) zeros2, View.ld_unit_zero (S := S1x3) zeros2,
    View.ld_unit_zero (S := S3x4) zeros2, View.ld_unit_zero (S := S1x4) zeros2]
  obtain ⟨-, -, -, -, -, -, -, -, -, -, e10, e11⟩ := block_at t
  funext j
  show k1_pay2 (F := Ideal) (iblk1 V c 0 t) (iblk1 V c 1 t) (iblk1 V c 2 t) (iblk1 V c 3 t) j
      = outRow (hiddenRow (V c main_v46) (V c main_v47)) (V c main_v48) (V c main_v49)
          (((cfg1.win 5).blk t).view.emb j)
  refine (congrArg (k1_pay2 (F := Ideal) (iblk1 V c 0 t) (iblk1 V c 1 t) (iblk1 V c 2 t) (iblk1 V c 3 t)) (eq_ix2 j)).trans ?_
  refine (out_point V c t (j 0) (j 1) ((((cfg1.win 5).blk t).view.emb j) 0) ?_).trans ?_
  · show win1_5.index t (0 : Fin 2) * 5000 + 1 * (j 0).val = t.val * 5000 + (j 0).val
    omega
  · refine congrArg (outRow (hiddenRow (V c main_v46) (V c main_v47)) (V c main_v48) (V c main_v49))
      (funext fun a => Fin.ext ?_)
    match a with
    | ⟨0, _⟩ => rfl
    | ⟨1, _⟩ =>
      show (j 1).val = win1_5.index t (1 : Fin 2) * 4 + 1 * (j 1).val
      omega

/-- An index of the first result is in grid point `t`'s block iff each coordinate is in the block's range. -/
theorem mem_block_hidden (t : Fin cfg1.N) (i : S500000x3.Idx) :
    i ∈ ((cfg1.win 4).blk t).view.set ↔ ∀ a : Fin 2, win1_4.index t a * S5000x3.size a ≤ (i a).val
      ∧ (i a).val < win1_4.index t a * S5000x3.size a + S5000x3.size a := by
  show i ∈ ((View.whole main_v50_0).slice (win1_4.rect t)).set ↔ _
  rw [View.set_slice_whole, Rect.mem_set_unit]
  exact Iff.rfl

/-- An index of the second result is in grid point `t`'s block iff each coordinate is in the block's range. -/
theorem mem_block_out (t : Fin cfg1.N) (i : S500000x4.Idx) :
    i ∈ ((cfg1.win 5).blk t).view.set ↔ ∀ a : Fin 2, win1_5.index t a * S5000x4.size a ≤ (i a).val
      ∧ (i a).val < win1_5.index t a * S5000x4.size a + S5000x4.size a := by
  show i ∈ ((View.whole main_v50_1).slice (win1_5.rect t)).set ↔ _
  rw [View.set_slice_whole, Rect.mem_set_unit]
  exact Iff.rfl

/-- Every entry of the first result is written by some grid point: row `r` by block `r / 5000`. -/
theorem covered_hidden (i : S500000x3.Idx) :
    ∃ t : Fin cfg1.N, (cfg1.win 4).flush t = true ∧ i ∈ ((cfg1.win 4).blk t).view.set := by
  have hi0 : (i 0).val < 500000 := (i 0).isLt
  have hi1 : (i 1).val < 3 := (i 1).isLt
  have hlt : (i 0).val / 5000 < 100 := by omega
  refine ⟨⟨(i 0).val / 5000, hlt⟩, flush1_4 _, ?_⟩
  rw [mem_block_hidden]
  obtain ⟨-, -, -, -, -, -, -, -, e8, e9, -⟩ := block_at ⟨(i 0).val / 5000, hlt⟩
  have e8' : win1_4.index ⟨(i 0).val / 5000, hlt⟩ (0 : Fin 2) = (i 0).val / 5000 := e8
  intro a
  match a with
  | ⟨0, _⟩ =>
    show win1_4.index _ (0 : Fin 2) * 5000 ≤ (i 0).val ∧ (i 0).val < win1_4.index _ (0 : Fin 2) * 5000 + 5000
    omega
  | ⟨1, _⟩ =>
    show win1_4.index _ (1 : Fin 2) * 3 ≤ (i 1).val ∧ (i 1).val < win1_4.index _ (1 : Fin 2) * 3 + 3
    omega

/-- Every entry of the second result is written by some grid point: row `r` by block `r / 5000`. -/
theorem covered_out (i : S500000x4.Idx) :
    ∃ t : Fin cfg1.N, (cfg1.win 5).flush t = true ∧ i ∈ ((cfg1.win 5).blk t).view.set := by
  have hi0 : (i 0).val < 500000 := (i 0).isLt
  have hi1 : (i 1).val < 4 := (i 1).isLt
  have hlt : (i 0).val / 5000 < 100 := by omega
  refine ⟨⟨(i 0).val / 5000, hlt⟩, flush1_5 _, ?_⟩
  rw [mem_block_out]
  obtain ⟨-, -, -, -, -, -, -, -, -, -, e10, e11⟩ := block_at ⟨(i 0).val / 5000, hlt⟩
  have e10' : win1_5.index ⟨(i 0).val / 5000, hlt⟩ (0 : Fin 2) = (i 0).val / 5000 := e10
  intro a
  match a with
  | ⟨0, _⟩ =>
    show win1_5.index _ (0 : Fin 2) * 5000 ≤ (i 0).val ∧ (i 0).val < win1_5.index _ (0 : Fin 2) * 5000 + 5000
    omega
  | ⟨1, _⟩ =>
    show win1_5.index _ (1 : Fin 2) * 4 ≤ (i 1).val ∧ (i 1).val < win1_5.index _ (1 : Fin 2) * 4 + 4
    omega

/-- THE FIRST RESULT the second launch leaves: the hidden layer of the arrays the launch found. -/
theorem hidden_array (c : Dev nD) :
    (dat1 V c).arrAt 4 cfg1.N = hiddenRow (V c main_v46) (V c main_v47) :=
  (dat1 V c).arrAt_eq_of_cover 4 (hiddenRow (V c main_v46) (V c main_v47)) (fun t _ => flushed_hidden V c t)
    covered_hidden

/-- THE SECOND RESULT the second launch leaves: the output layer over that hidden layer. -/
theorem out_array (c : Dev nD) :
    (dat1 V c).arrAt 5 cfg1.N
      = outRow (hiddenRow (V c main_v46) (V c main_v47)) (V c main_v48) (V c main_v49) :=
  (dat1 V c).arrAt_eq_of_cover 5 (outRow (hiddenRow (V c main_v46) (V c main_v47)) (V c main_v48) (V c main_v49))
    (fun t _ => flushed_out V c t) covered_out

end

end Cert.KernelIdeal.ReluLinear

end
-- ==== Proof.Graph.lean ====
/-
  The graph aggregation, carried whole.

  Between the first layer and the hidden layer both programs apply the SAME chain of host operations: from the
  edge list they build the source and the target index of every edge with a self-loop appended per node, count
  each node's in-degree by a scatter-add of ones, take the reciprocal square root of the degree (zero where the
  degree is zero), gather that at both ends of each edge and multiply — the edge's normalisation —, gather the
  first layer's three channels at each edge's source, scale them by the edge's normalisation, and scatter-add
  them at the edge's target into zeros. The chain is a function of two things only: the first layer's result and
  the edge list.

  Nothing in this certificate depends on what that function is. It is written down once under each program's
  own vocabulary of shapes and dimension records (the two vocabularies spell the same shapes and the same
  records), and the two are stated equal; every later step treats it as one opaque function applied to equal
  arguments.
-/
import proofs.«153581_j69269232549994_2_alg».proof.Proof.Gen.KernelIdeal
import proofs.«153581_j69269232549994_2_alg».proof.Proof.Gen.ReferenceIdeal

noncomputable section

namespace Cert.KernelIdeal.Graph

open Cert.KernelIdeal Cert.KernelIdeal.Gen Idealize.ShloMosaic Idealize.ShloMosaic.TcCoe Idealize.SL.Sem

variable {F : FTy → Type} [FloatOps F]

set_option maxRecDepth 8192 in
/-- The aggregated channels as a function of the first layer's result `xw` and the edge list `e`. -/
def aggOf (xw : (⟨S500000x3, .f32⟩ : BufTy).Contents (Elt F)) (e : (⟨S2x16000000, .i32⟩ : BufTy).Contents (Elt F)) :
    (⟨S500000x3, .f32⟩ : BufTy).Contents (Elt F) :=
  Host.scatterAdd scatter_S500000x3_S16500000x1_S16500000x3_1_0_0_1 (broadcastInDim S500000x3 ![] bcast_S_S500000x3 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (mulf (Host.gather gather_S500000x3_S16500000x1_S16500000x3_1_0_n_n_0_1_13 xw (broadcastInDim S16500000x1 ![0] bcast_S16500000_S16500000x1_0 (select (cmpi .slt (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 0#32))) (addi (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 500000#32))) (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0)))) (broadcastInDim S16500000x3 ![0, 1] bcast_S16500000x1_S16500000x3_0_1 (broadcastInDim S16500000x1 ![0] bcast_S16500000_S16500000x1_0 (mulf (Host.gather gather_S500000_S16500000x1_S16500000_n_0_n_n_0_1_1 (select (cmpf (F := F) .ogt (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x00000000#32))) (Host.rsqrt (maximumf (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x3F800000#32)))) (broadcastInDim S500000 ![] bcast_S_S500000 (id (constant S_ .f32 0x00000000#32)))) (broadcastInDim S16500000x1 ![0] bcast_S16500000_S16500000x1_0 (select (cmpi .slt (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 0#32))) (addi (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 500000#32))) (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0)))) (Host.gather gather_S500000_S16500000x1_S16500000_n_0_n_n_0_1_1 (select (cmpf (F := F) .ogt (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x00000000#32))) (Host.rsqrt (maximumf (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x3F800000#32)))) (broadcastInDim S500000 ![] bcast_S_S500000 (id (constant S_ .f32 0x00000000#32)))) (broadcastInDim S16500000x1 ![0] bcast_S16500000_S16500000x1_0 (select (cmpi .slt (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0) (broadcastInDim S16500000 ![] bcast_S_S16500000 (constantI S_ 32 0#32))) (addi (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0) (broadcastInDim S16500000 ![] bcast_S_S16500000 (constantI S_ 32 500000#32))) (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0))))))))

end Cert.KernelIdeal.Graph

namespace Cert.ReferenceIdeal.Graph

open Cert.ReferenceIdeal Cert.ReferenceIdeal.Gen Idealize.ShloMosaic Idealize.ShloMosaic.TcCoe Idealize.SL.Sem

variable {F : FTy → Type} [FloatOps F]

set_option maxRecDepth 8192 in
/-- The same function under the reference program's vocabulary. -/
def aggOf (xw : (⟨S500000x3, .f32⟩ : BufTy).Contents (Elt F)) (e : (⟨S2x16000000, .i32⟩ : BufTy).Contents (Elt F)) :
    (⟨S500000x3, .f32⟩ : BufTy).Contents (Elt F) :=
  Host.scatterAdd scatter_S500000x3_S16500000x1_S16500000x3_1_0_0_1 (broadcastInDim S500000x3 ![] bcast_S_S500000x3 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (mulf (Host.gather gather_S500000x3_S16500000x1_S16500000x3_1_0_n_n_0_1_13 xw (broadcastInDim S16500000x1 ![0] bcast_S16500000_S16500000x1_0 (select (cmpi .slt (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 0#32))) (addi (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 500000#32))) (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0)))) (broadcastInDim S16500000x3 ![0, 1] bcast_S16500000x1_S16500000x3_0_1 (broadcastInDim S16500000x1 ![0] bcast_S16500000_S16500000x1_0 (mulf (Host.gather gather_S500000_S16500000x1_S16500000_n_0_n_n_0_1_1 (select (cmpf (F := F) .ogt (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x00000000#32))) (Host.rsqrt (maximumf (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x3F800000#32)))) (broadcastInDim S500000 ![] bcast_S_S500000 (id (constant S_ .f32 0x00000000#32)))) (broadcastInDim S16500000x1 ![0] bcast_S16500000_S16500000x1_0 (select (cmpi .slt (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 0#32))) (addi (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0) (broadcastInDim S16500000 ![] bcast_S_S16500000 (constantI S_ 32 500000#32))) (concatenate S16500000 0 [⟨S16000000, (shapeCast _ (extractStridedSlice S1x16000000 ![0, 0] e slices_S2x16000000_S1x16000000_0_0) shapeCasts_S1x16000000_S16000000)⟩, ⟨S500000, (iotaInDim S500000 32 0)⟩] concatenates_S16000000_S500000_S16500000_d0)))) (Host.gather gather_S500000_S16500000x1_S16500000_n_0_n_n_0_1_1 (select (cmpf (F := F) .ogt (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x00000000#32))) (Host.rsqrt (maximumf (Host.scatterAdd scatter_S500000_S16500000x1_S16500000_n_0_0_1 (broadcastInDim S500000 ![] bcast_S_S500000 (constant S_ .f32 0x00000000#32)) (broadcastInDim S16500000x1 ![0] bcast_S16500000_S16500000x1_0 (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0)) (broadcastInDim S16500000 ![] bcast_S_S16500000 (constant S_ .f32 0x3F800000#32))) (broadcastInDim S500000 ![] bcast_S_S500000 (constant S_ .f32 0x3F800000#32)))) (broadcastInDim S500000 ![] bcast_S_S500000 (id (constant S_ .f32 0x00000000#32)))) (broadcastInDim S16500000x1 ![0] bcast_S16500000_S16500000x1_0 (select (cmpi .slt (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0) (broadcastInDim S16500000 ![] bcast_S_S16500000 (constantI S_ 32 0#32))) (addi (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0) (broadcastInDim S16500000 ![] bcast_S_S16500000 (constantI S_ 32 500000#32))) (concatenate S16500000 0 [⟨S16000000, (shapeCast _ (extractStridedSlice S1x16000000 ![1, 0] e slices_S2x16000000_S1x16000000_1_0) shapeCasts_S1x16000000_S16000000)⟩, ⟨S500000, (iotaInDim S500000 32 0)⟩] concatenates_S16000000_S500000_S16500000_d0))))))))

end Cert.ReferenceIdeal.Graph

namespace Cert.Graph

open Idealize.ShloMosaic

variable {F : FTy → Type} [FloatOps F]

set_option maxRecDepth 8192 in
/-- The two spellings are one function. -/
theorem aggOf_eq (xw : (⟨Cert.KernelIdeal.S500000x3, .f32⟩ : BufTy).Contents (Elt F))
    (e : (⟨Cert.KernelIdeal.S2x16000000, .i32⟩ : BufTy).Contents (Elt F)) :
    Cert.KernelIdeal.Graph.aggOf xw e = Cert.ReferenceIdeal.Graph.aggOf xw e := rfl

end Cert.Graph

end
-- ==== Proof.HostSide.lean ====
/-
  What the two launches of the idealized kernel find in their input arrays.

  The first launch reads the node features, which no host operation has touched, and the first weight matrix
  transposed by the host. The second launch reads the aggregated channels — the graph aggregation
  (`Graph.aggOf`) of whatever the first launch left in its result array and of the edge list —, the first bias
  recast as a 1 × 3 row, the second weight matrix transposed, and the second bias recast as a 1 × 4 row. Each is
  read off the fold of host operations from the launch memory; the first launch's result array enters only as the
  contents of its buffer at the boundary after that launch.
-/
import proofs.«153581_j69269232549994_2_alg».proof.Proof.Gen.KernelIdeal.Frame
import proofs.«153581_j69269232549994_2_alg».proof.Proof.Graph
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The first launch finds the node features as launched. -/
theorem entry_features (c : Dev nD) :
    W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0_2, hostOps0_1, hostOps0]
  after_results_simp <;> rfl

/-- The first launch finds the first weight matrix transposed. -/
theorem entry_weight (c : Dev nD) :
    W3 m ρ c (Proc.devRef .tc main_v32)
      = transpose S128x3 [1, 0] (m ((c : Thread nD τ).loc main_arg2)) transposes_S3x128_S128x3_1_0 := by
  show StableHlo.after hostOps0_2 (StableHlo.after hostOps0_1 (StableHlo.after hostOps0 (W0 m ρ c))) (Proc.devRef .tc main_v32) = _
  dsimp only [hostOps0_2, hostOps0_1, hostOps0]
  after_results_simp <;> rfl

/-- The second launch finds the first bias recast as a 1 × 3 row. -/
theorem entry_bias (c : Dev nD) :
    W5 m ρ c (Proc.devRef .tc main_v47)
      = shapeCast S1x3 (W4 m ρ c (Proc.devRef .tc main_arg3)) shapeCasts_S3_S1x3 := by
  show StableHlo.after hostOps1 (W4 m ρ c) (Proc.devRef .tc main_v47) = _
  dsimp only [hostOps1]
  after_results_simp <;> rfl

/-- The second launch finds the second weight matrix transposed. -/
theorem entry_outWeight (c : Dev nD) :
    W5 m ρ c (Proc.devRef .tc main_v48)
      = transpose S3x4 [1, 0] (W4 m ρ c (Proc.devRef .tc main_arg4)) transposes_S4x3_S3x4_1_0 := by
  show StableHlo.after hostOps1 (W4 m ρ c) (Proc.devRef .tc main_v48) = _
  dsimp only [hostOps1]
  after_results_simp <;> rfl

/-- The second launch finds the second bias recast as a 1 × 4 row. -/
theorem entry_outBias (c : Dev nD) :
    W5 m ρ c (Proc.devRef .tc main_v49)
      = shapeCast S1x4 (W4 m ρ c (Proc.devRef .tc main_arg5)) shapeCasts_S4_S1x4 := by
  show StableHlo.after hostOps1 (W4 m ρ c) (Proc.devRef .tc main_v49) = _
  dsimp only [hostOps1]
  after_results_simp <;> rfl

/-- After the first launch the first bias is as launched. -/
theorem kept_bias (c : Dev nD) :
    W4 m ρ c (Proc.devRef .tc main_arg3) = m ((c : Thread nD τ).loc main_arg3) := by
  refine (W4_of_ne m ρ c main_arg3 (by decide)).trans ?_
  show StableHlo.after hostOps0_2 (StableHlo.after hostOps0_1 (StableHlo.after hostOps0 (W0 m ρ c))) (Proc.devRef .tc main_arg3) = _
  dsimp only [hostOps0_2, hostOps0_1, hostOps0]
  after_results_simp <;> rfl

/-- After the first launch the second weight matrix is as launched. -/
theorem kept_outWeight (c : Dev nD) :
    W4 m ρ c (Proc.devRef .tc main_arg4) = m ((c : Thread nD τ).loc main_arg4) := by
  refine (W4_of_ne m ρ c main_arg4 (by decide)).trans ?_
  show StableHlo.after hostOps0_2 (StableHlo.after hostOps0_1 (StableHlo.after hostOps0 (W0 m ρ c))) (Proc.devRef .tc main_arg4) = _
  dsimp only [hostOps0_2, hostOps0_1, hostOps0]
  after_results_simp <;> rfl

/-- After the first launch the second bias is as launched. -/
theorem kept_outBias (c : Dev nD) :
    W4 m ρ c (Proc.devRef .tc main_arg5) = m ((c : Thread nD τ).loc main_arg5) := by
  refine (W4_of_ne m ρ c main_arg5 (by decide)).trans ?_
  show StableHlo.after hostOps0_2 (StableHlo.after hostOps0_1 (StableHlo.after hostOps0 (W0 m ρ c))) (Proc.devRef .tc main_arg5) = _
  dsimp only [hostOps0_2, hostOps0_1, hostOps0]
  after_results_simp <;> rfl

set_option maxHeartbeats 4000000 in
/-- The second launch finds the aggregated channels: the graph aggregation of what the first launch left in its
    result array and of the edge list as launched. -/
theorem entry_agg (c : Dev nD) :
    W5 m ρ c (Proc.devRef .tc main_v46)
      = Graph.aggOf (W4 m ρ c (Proc.devRef .tc main_v33)) (m ((c : Thread nD τ).loc main_arg1)) := by
  show StableHlo.after hostOps1 (W4 m ρ c) (Proc.devRef .tc main_v46) = _
  dsimp only [hostOps1]
  after_results_simp
  rw [W4_of_ne m ρ c main_v3 (by decide), W4_of_ne m ρ c main_v6 (by decide), W4_of_ne m ρ c main_v31 (by decide)]
  dsimp only [W3, W2, W1, hostOps0_2, hostOps0_1, hostOps0]
  after_results_simp
  unfold Graph.aggOf
  rfl

end Cert.KernelIdeal.HostSide

end
-- ==== Proof.LibRowInDim.lean ====
/-
  The row forms of `broadcast_in_dim`, read at an index given by coordinates: a vector `[b]` laid as the row
  `[1, b]` (its axis sent to axis 1), and a row `[1, b]` repeated down the rows to `[a, b]` (axes sent to
  themselves). This is how a per-column quantity — a bias — is added to every row of a matrix: both read the
  operand at the column coordinate alone. (`b ≠ 1`: on an axis of extent one a broadcast reads coordinate 0
  whatever the index, and the statements would need no hypothesis but another proof.)
-/
import Idealize.ShloMosaic.Lib.Pipeline.Value
import Idealize.ShloMosaic.Lib.ValueIdx

namespace Cert.Lib.RowInDim

open Idealize.ShloMosaic Idealize.ShloMosaic.ValueIdx

variable {α : Type}

/-- A vector `[b]` laid as the row `[1, b]` reads, at `(u, q)`, the vector at `q`. -/
theorem row_apply {b : ℕ} (hb : b ≠ 1) (h : (⟨1, ![b]⟩ : Shape).BroadcastsInDim ⟨2, ![1, b]⟩ ![1])
    (v : (⟨1, ![b]⟩ : Shape).Idx → α) (u : Fin 1) (q : Fin b) :
    broadcastInDim ⟨2, ![1, b]⟩ ![1] h v (ix2 u q) = v (ix1 q) :=
  broadcastInDim_apply _ h v (ix2 u q) (ix1 q) (fun a => match a with
    | ⟨0, _⟩ => by show q.val = if b = 1 then 0 else q.val; rw [if_neg hb])

/-- A row `[1, b]` repeated down the rows to `[a, b]` reads, at `(P, q)`, the row's entry of column `q`. -/
theorem repeat_apply {a b : ℕ} (hb : b ≠ 1) (h : (⟨2, ![1, b]⟩ : Shape).BroadcastsInDim ⟨2, ![a, b]⟩ ![0, 1])
    (v : (⟨2, ![1, b]⟩ : Shape).Idx → α) (P : Fin a) (q : Fin b) :
    broadcastInDim ⟨2, ![a, b]⟩ ![0, 1] h v (ix2 P q) = v (ix2 (0 : Fin 1) q) :=
  broadcastInDim_apply _ h v (ix2 P q) (ix2 (0 : Fin 1) q) (fun ax => match ax with
    | ⟨0, _⟩ => by show 0 = if (1 : ℕ) = 1 then 0 else P.val; rw [if_pos rfl]
    | ⟨1, _⟩ => by show q.val = if b = 1 then 0 else q.val; rw [if_neg hb])

end Cert.Lib.RowInDim
-- ==== Proof.MatrixForms.lean ====
/-
  Two ways the programs hold the parameters, read at coordinates.

  A weight matrix is used transposed: both programs transpose it on the host and multiply by the transposed
  array, so the transposed array is named here (`tr`) and the host's transpose is shown to be it. A bias vector
  is added to every row of a matrix: the kernel recasts the vector as a one-row matrix and lets the body repeat
  the row; the reference lays the vector as a one-row matrix and repeats it down the rows on the host. Either way
  the entry added at column `q` of any row is the vector's entry `q`.
-/
import proofs.«153581_j69269232549994_2_alg».proof.Proof.LibRowInDim
import Idealize.ShloMosaic.PureOps.Ideal
import Idealize.ShloMosaic.Lib.ValueIdx
import Idealize.ShloMosaic.Lib.ValueLayout

noncomputable section

namespace Cert.Gcn

open Idealize.ShloMosaic Idealize.ShloMosaic.ValueIdx

variable {α : Type}

/-- A matrix read transposed: entry (j, i) of the result is entry (i, j) of the matrix. -/
def tr {a b : ℕ} (W : (⟨2, ![a, b]⟩ : Shape).Idx → α) : (⟨2, ![b, a]⟩ : Shape).Idx → α :=
  fun i => W (ix2 (i 1 : Fin a) (i 0 : Fin b))

theorem tr_apply {a b : ℕ} (W : (⟨2, ![a, b]⟩ : Shape).Idx → α) (j : Fin b) (i : Fin a) :
    tr W (ix2 j i) = W (ix2 i j) := rfl

/-- The host's transpose of a matrix is the matrix read transposed. -/
theorem transpose_eq_tr {a b : ℕ} (W : (⟨2, ![a, b]⟩ : Shape).Idx → α)
    (h : (⟨2, ![a, b]⟩ : Shape).Transposes [1, 0] ⟨2, ![b, a]⟩) :
    transpose ⟨2, ![b, a]⟩ [1, 0] W h = tr W := by
  funext i
  obtain ⟨j, k, rfl⟩ : ∃ (j : Fin b) (k : Fin a), i = ix2 j k := ⟨i 0, i 1, eq_ix2 i⟩
  exact transpose_ix2_apply W h j k

/-- A vector recast as a one-row matrix reads, at column `q` of its row, the vector's entry `q`. -/
theorem castRow_apply {b : ℕ} (v : (⟨1, ![b]⟩ : Shape).Idx → α) (h : (⟨1, ![b]⟩ : Shape).ShapeCasts ⟨2, ![1, b]⟩)
    (q : Fin b) : shapeCast ⟨2, ![1, b]⟩ v h (ix2 (0 : Fin 1) q) = v (ix1 q) :=
  shapeCast_a_1a_apply v h 0 q

/-- A vector laid as a one-row matrix and repeated down `a` rows reads, at (P, q), the vector's entry `q`. -/
theorem repeatedRow_apply {a b : ℕ} (hb : b ≠ 1) (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (P : Fin a) (q : Fin b) :
    broadcastInDim ⟨2, ![a, b]⟩ ![0, 1] h2 (broadcastInDim ⟨2, ![1, b]⟩ ![1] h1 v) (ix2 P q) = v (ix1 q) :=
  (Cert.Lib.RowInDim.repeat_apply hb h2 _ P q).trans (Cert.Lib.RowInDim.row_apply hb h1 v 0 q)

end Cert.Gcn

end
-- ==== Proof.KernelValue.lean ====
/-
  The idealized kernel's two results, read as the specification.

  The last boundary of the kernel's chain holds, in the two result buffers, what the second launch's write-backs
  leave: the hidden layer and the output layer of the arrays that launch found (`ReluLinear`). Those arrays are
  the graph aggregation of the first launch's result and the edge list, and the two biases and the second weight
  matrix recast or transposed by the host (`HostSide`); the first launch's result is the first layer of the node
  features and the transposed first weight matrix (`Linear`). A bias recast as a one-row matrix and repeated by
  the body adds the bias's entry of the column, and a host transpose is the matrix read transposed: so the two
  buffers end at the hidden and the output layer of `Gcn` over `Graph.aggOf` of `Gcn.lin`, functions of the six
  argument arrays alone.
-/
import proofs.«153581_j69269232549994_2_alg».proof.Proof.Gen.KernelIdeal.Frame
import proofs.«153581_j69269232549994_2_alg».proof.Proof.Linear
import proofs.«153581_j69269232549994_2_alg».proof.Proof.ReluLinear
import proofs.«153581_j69269232549994_2_alg».proof.Proof.HostSide
import proofs.«153581_j69269232549994_2_alg».proof.Proof.MatrixForms
import proofs.«153581_j69269232549994_2_alg».proof.Proof.Graph
import proofs.«153581_j69269232549994_2_alg».proof.Proof.Gcn

noncomputable section

namespace Cert.KernelIdeal.KernelValue

open Cert.KernelIdeal Cert.KernelIdeal.Gen
open Idealize.ShloMosaic Idealize.ShloMosaic.TcCoe Idealize.ShloMosaic.ValueIdx Idealize.SL.Sem
open scoped BigOperators

/-- The hidden layer with the bias recast as a one-row matrix is the hidden layer. -/
theorem hiddenRow_cast (agg : FVec Ideal S500000x3 .f32) (b : FVec Ideal S3 .f32) :
    ReluLinear.hiddenRow agg (shapeCast S1x3 b shapeCasts_S3_S1x3) = Gcn.hidden agg b := by
  funext i
  obtain ⟨n, f, rfl⟩ : ∃ (n : Fin 500000) (f : Fin 3), i = ix2 n f := ⟨i 0, i 1, eq_ix2 i⟩
  show max (agg (ix2 n f) + shapeCast S1x3 b shapeCasts_S3_S1x3 (ix2 (0 : Fin 1) f)) (Ideal.ofBits .f32 0x00000000#32)
      = max (agg (ix2 n f) + b (ix1 f)) (Ideal.ofBits .f32 0x00000000#32)
  rw [Gcn.castRow_apply]

/-- The output layer with the weight matrix transposed by the host and the bias recast as a one-row matrix is the
    output layer. -/
theorem outRow_cast (h : FVec Ideal S500000x3 .f32) (Wo : FVec Ideal S4x3 .f32) (ob : FVec Ideal S4 .f32) :
    ReluLinear.outRow h (transpose S3x4 [1, 0] Wo transposes_S4x3_S3x4_1_0) (shapeCast S1x4 ob shapeCasts_S4_S1x4)
      = Gcn.out h (Gcn.tr Wo) ob := by
  rw [Gcn.transpose_eq_tr]
  funext i
  obtain ⟨n, o, rfl⟩ : ∃ (n : Fin 500000) (o : Fin 4), i = ix2 n o := ⟨i 0, i 1, eq_ix2 i⟩
  show (∑ k : Fin 3, h (ix2 n k) * Gcn.tr Wo (ix2 k o)) + shapeCast S1x4 ob shapeCasts_S4_S1x4 (ix2 (0 : Fin 1) o)
      = (∑ k : Fin 3, h (ix2 n k) * Gcn.tr Wo (ix2 k o)) + ob (ix1 o)
  rw [Gcn.castRow_apply]

section
variable (m : (ℓ : Loc nD τ sig) → Buf (Elt Ideal) ℓ) (ρ : Dev nD → PrngReg)

/-- What the first launch leaves in its result array: the first layer of the arguments. -/
theorem first_result (c : Dev nD) :
    W4 m ρ c (Proc.devRef .tc main_v33)
      = Gcn.lin (m ((c : Thread nD τ).loc main_arg0)) (Gcn.tr (m ((c : Thread nD τ).loc main_arg2))) := by
  refine (W4_arr m ρ c 2).trans ?_
  rw [Linear.array_eq (V3 m ρ) c]
  show Gcn.lin (W3 m ρ c (Proc.devRef .tc main_arg0)) (W3 m ρ c (Proc.devRef .tc main_v32)) = _
  rw [HostSide.entry_features, HostSide.entry_weight, Gcn.transpose_eq_tr]

/-- THE KERNEL'S FIRST RESULT: the hidden layer over the graph aggregation of the first layer. -/
theorem hidden_result (c : Dev nD) :
    W6 m ρ c (Proc.devRef .tc main_v50_0)
      = Gcn.hidden (Graph.aggOf (Gcn.lin (m ((c : Thread nD τ).loc main_arg0)) (Gcn.tr (m ((c : Thread nD τ).loc main_arg2))))
          (m ((c : Thread nD τ).loc main_arg1))) (m ((c : Thread nD τ).loc main_arg3)) := by
  refine (W6_arr m ρ c 4).trans ?_
  rw [ReluLinear.hidden_array (V5 m ρ) c]
  show ReluLinear.hiddenRow (W5 m ρ c (Proc.devRef .tc main_v46)) (W5 m ρ c (Proc.devRef .tc main_v47)) = _
  rw [HostSide.entry_agg, HostSide.entry_bias, HostSide.kept_bias, first_result]
  exact hiddenRow_cast _ _

/-- THE KERNEL'S SECOND RESULT: the output layer over that hidden layer. -/
theorem out_result (c : Dev nD) :
    W6 m ρ c (Proc.devRef .tc main_v50_1)
      = Gcn.out (Gcn.hidden (Graph.aggOf (Gcn.lin (m ((c : Thread nD τ).loc main_arg0)) (Gcn.tr (m ((c : Thread nD τ).loc main_arg2))))
          (m ((c : Thread nD τ).loc main_arg1))) (m ((c : Thread nD τ).loc main_arg3)))
          (Gcn.tr (m ((c : Thread nD τ).loc main_arg4))) (m ((c : Thread nD τ).loc main_arg5)) := by
  refine (W6_arr m ρ c 5).trans ?_
  rw [ReluLinear.out_array (V5 m ρ) c]
  show ReluLinear.outRow (ReluLinear.hiddenRow (W5 m ρ c (Proc.devRef .tc main_v46)) (W5 m ρ c (Proc.devRef .tc main_v47)))
      (W5 m ρ c (Proc.devRef .tc main_v48)) (W5 m ρ c (Proc.devRef .tc main_v49)) = _
  rw [HostSide.entry_agg, HostSide.entry_bias, HostSide.kept_bias, first_result, HostSide.entry_outWeight,
    HostSide.kept_outWeight, HostSide.entry_outBias, HostSide.kept_outBias, hiddenRow_cast]
  exact outRow_cast _ _ _

end

end Cert.KernelIdeal.KernelValue

end
-- ==== Proof.RefValue.lean ====
/-
  The reference's two results, read as the specification.

  The reference's run ends with its first result at the maximum of (aggregated channels + first bias, repeated
  down the rows) and a splat of zero, and its second result at the host's product of that first result by the
  transposed second weight matrix, plus the second bias repeated down the rows. The aggregated channels are the
  graph aggregation (`Graph.aggOf`) of the host's product of the node features by the transposed first weight
  matrix. Read at coordinates: each host product is the plain finite sum over the contracted coordinate, each
  repeated bias is the bias's entry of the column, and the maximum with the zero splat is the cut-off at the same
  32-bit zero word — the hidden and the output layer of `Gcn` over `Graph.aggOf` of `Gcn.lin`.
-/
import proofs.«153581_j69269232549994_2_alg».proof.Proof.RefRun
import proofs.«153581_j69269232549994_2_alg».proof.Proof.Graph
import proofs.«153581_j69269232549994_2_alg».proof.Proof.Gcn
import proofs.«153581_j69269232549994_2_alg».proof.Proof.MatrixForms
import proofs.«153581_j69269232549994_2_alg».proof.Proof.LibContractPlain

noncomputable section

namespace Cert.ReferenceIdeal.RefValue

open Cert.ReferenceIdeal Cert.ReferenceIdeal.Gen Cert.ReferenceIdeal.ValueP
open Idealize.ShloMosaic Idealize.ShloMosaic.TcCoe Idealize.SL.Sem Idealize.ShloMosaic.StableHlo Idealize.ShloMosaic.ValueIdx
open scoped BigOperators

/-! ## The three arithmetic stages as the host spells them -/

/-- The host's product of the node features by the transposed first weight matrix is the first layer. -/
theorem firstLayer_eq (x : FVec Ideal S500000x128 .f32) (W : FVec Ideal S3x128 .f32) :
    Host.dotGeneral dot_S500000x128_S128x3_S500000x3_1_0_0_1_n_n none x
        (transpose S128x3 [1, 0] W transposes_S3x128_S128x3_1_0)
      = Gcn.lin x (Gcn.tr W) := by
  rw [Gcn.transpose_eq_tr]
  funext i
  obtain ⟨n, f, rfl⟩ : ∃ (n : Fin 500000) (f : Fin 3), i = ix2 n f := ⟨i 0, i 1, eq_ix2 i⟩
  exact Cert.Lib.ContractPlain.hostDot_apply _ rfl none x (Gcn.tr W) n f

/-- Channels plus the bias repeated down the rows, cut off at the zero splat, is the hidden layer. -/
theorem hidden_form (agg : FVec Ideal S500000x3 .f32) (b : FVec Ideal S3 .f32) :
    maximumf (addf agg (broadcastInDim S500000x3 ![0, 1] bcast_S1x3_S500000x3_0_1 (broadcastInDim S1x3 ![1] bcast_S3_S1x3_1 b)))
        (broadcastInDim S500000x3 ![] bcast_S_S500000x3 (constant (F := Ideal) S_ .f32 0x00000000#32))
      = Gcn.hidden agg b := by
  funext i
  obtain ⟨n, f, rfl⟩ : ∃ (n : Fin 500000) (f : Fin 3), i = ix2 n f := ⟨i 0, i 1, eq_ix2 i⟩
  show max (agg (ix2 n f) + broadcastInDim S500000x3 ![0, 1] bcast_S1x3_S500000x3_0_1
        (broadcastInDim S1x3 ![1] bcast_S3_S1x3_1 b) (ix2 n f)) (Ideal.ofBits .f32 0x00000000#32)
      = max (agg (ix2 n f) + b (ix1 f)) (Ideal.ofBits .f32 0x00000000#32)
  rw [Gcn.repeatedRow_apply (by decide)]

/-- The host's product by the transposed second weight matrix plus the second bias repeated down the rows is the
    output layer. -/
theorem out_form (h : FVec Ideal S500000x3 .f32) (Wo : FVec Ideal S4x3 .f32) (ob : FVec Ideal S4 .f32) :
    addf (Host.dotGeneral dot_S500000x3_S3x4_S500000x4_1_0_0_1_n_n none h
          (transpose S3x4 [1, 0] Wo transposes_S4x3_S3x4_1_0))
        (broadcastInDim S500000x4 ![0, 1] bcast_S1x4_S500000x4_0_1 (broadcastInDim S1x4 ![1] bcast_S4_S1x4_1 ob))
      = Gcn.out h (Gcn.tr Wo) ob := by
  rw [Gcn.transpose_eq_tr]
  funext i
  obtain ⟨n, o, rfl⟩ : ∃ (n : Fin 500000) (o : Fin 4), i = ix2 n o := ⟨i 0, i 1, eq_ix2 i⟩
  show Host.dotGeneral dot_S500000x3_S3x4_S500000x4_1_0_0_1_n_n none h (Gcn.tr Wo) (ix2 n o)
        + broadcastInDim S500000x4 ![0, 1] bcast_S1x4_S500000x4_0_1 (broadcastInDim S1x4 ![1] bcast_S4_S1x4_1 ob) (ix2 n o)
      = (∑ k : Fin 3, h (ix2 n k) * Gcn.tr Wo (ix2 k o)) + ob (ix1 o)
  rw [Gcn.repeatedRow_apply (by decide),
    Cert.Lib.ContractPlain.hostDot_apply dot_S500000x3_S3x4_S500000x4_1_0_0_1_n_n rfl none h (Gcn.tr Wo) n o]

/-! ## The run's two results -/

section
variable (m : (ℓ : Loc nD τ sig) → Buf (Elt Ideal) ℓ) (c : Dev nD)

set_option maxRecDepth 8192 in
/-- The first result as the run states it, with the aggregation named. -/
theorem res0_shape : res_main_v50 (F := Ideal) m c
    = (maximumf (addf (Graph.aggOf (Host.dotGeneral (φ₁ := .f32) (φ₂ := .f32) dot_S500000x128_S128x3_S500000x3_1_0_0_1_n_n none (m ((c.tc : Thread nD τ).loc main_arg0)) (transpose S128x3 [1, 0] (m ((c.tc : Thread nD τ).loc main_arg2)) transposes_S3x128_S128x3_1_0)) (m ((c.tc : Thread nD τ).loc main_arg1))) (broadcastInDim S500000x3 ![0, 1] bcast_S1x3_S500000x3_0_1 (broadcastInDim S1x3 ![1] bcast_S3_S1x3_1 (m ((c.tc : Thread nD τ).loc main_arg3))))) (broadcastInDim S500000x3 ![] bcast_S_S500000x3 (constant S_ .f32 0x00000000#32)) : FVec Ideal S500000x3 .f32) := by
  unfold res_main_v50 Graph.aggOf
  rfl

set_option maxRecDepth 8192 in
/-- The second result as the run states it, over the first. -/
theorem res1_shape : res_main_v55 (F := Ideal) m c
    = (addf (Host.dotGeneral (φ₁ := .f32) (φ₂ := .f32) dot_S500000x3_S3x4_S500000x4_1_0_0_1_n_n none (res_main_v50 (F := Ideal) m c) (transpose S3x4 [1, 0] (m ((c.tc : Thread nD τ).loc main_arg4)) transposes_S4x3_S3x4_1_0)) (broadcastInDim S500000x4 ![0, 1] bcast_S1x4_S500000x4_0_1 (broadcastInDim S1x4 ![1] bcast_S4_S1x4_1 (m ((c.tc : Thread nD τ).loc main_arg5)))) : FVec Ideal S500000x4 .f32) := by
  unfold res_main_v55 res_main_v50
  rfl

/-- THE REFERENCE'S FIRST RESULT: the hidden layer over the graph aggregation of the first layer. -/
theorem res0_eq : res_main_v50 (F := Ideal) m c
    = Gcn.hidden (Graph.aggOf (Gcn.lin (m ((c.tc : Thread nD τ).loc main_arg0)) (Gcn.tr (m ((c.tc : Thread nD τ).loc main_arg2))))
        (m ((c.tc : Thread nD τ).loc main_arg1))) (m ((c.tc : Thread nD τ).loc main_arg3)) := by
  rw [res0_shape m c, firstLayer_eq (m ((c.tc : Thread nD τ).loc main_arg0)) (m ((c.tc : Thread nD τ).loc main_arg2))]
  exact hidden_form _ (m ((c.tc : Thread nD τ).loc main_arg3))

/-- THE REFERENCE'S SECOND RESULT: the output layer over that hidden layer. -/
theorem res1_eq : res_main_v55 (F := Ideal) m c
    = Gcn.out (Gcn.hidden (Graph.aggOf (Gcn.lin (m ((c.tc : Thread nD τ).loc main_arg0)) (Gcn.tr (m ((c.tc : Thread nD τ).loc main_arg2))))
        (m ((c.tc : Thread nD τ).loc main_arg1))) (m ((c.tc : Thread nD τ).loc main_arg3)))
        (Gcn.tr (m ((c.tc : Thread nD τ).loc main_arg4))) (m ((c.tc : Thread nD τ).loc main_arg5)) := by
  rw [res1_shape m c, res0_eq m c]
  exact out_form _ (m ((c.tc : Thread nD τ).loc main_arg4)) (m ((c.tc : Thread nD τ).loc main_arg5))

end

end Cert.ReferenceIdeal.RefValue

end
-- ==== Proof.lean ====
/-
  A two-layer graph convolution computed two ways: by a program with two kernel launches around the graph
  aggregation, and by a plain array program. Both are read on the extended reals.

  Both programs first multiply the 500000 × 128 node features by the transposed 3 × 128 weight matrix — the
  kernel block by block on the matrix unit into zeros, after narrowing both factors to a 16-bit format; the
  reference in one host product. On the extended reals the narrowing is the identity and either product is, entry
  by entry, the sum over the 128 features of feature times weight (`Gcn.lin`). Both programs then apply the SAME
  chain of host operations to that product and the edge list — self-loops, in-degrees, the symmetric
  normalisation, gather, scale, scatter-add — which this certificate carries as one function (`Graph.aggOf`) and
  never opens. Both then add the first bias to every row and cut off below at zero (`Gcn.hidden`: the kernel inside
  its second launch with the bias held as a one-row matrix, the reference with the bias repeated down the rows), and
  multiply by the transposed second weight matrix and add the second bias (`Gcn.out`: again the matrix unit into
  zeros against a host product, three terms per entry).

  So each program's two results are the same two functions of the six argument arrays, and the arrays agree. No
  step needs the inputs to be finite: the laws used are that a product into a zero accumulator is the plain sum,
  that a change of format is the identity, and that a bias reaches an entry as its entry of the column however it
  is laid out — each holds at the infinities as well.

  The three frame claims: the two kernel programs' from their frame certificates; the reference's from its run,
  with the results dropped. The idealized kernel is the kernel's text read on the extended reals with no rewrite,
  so that claim holds trivially.
-/
import proofs.«153581_j69269232549994_2_alg».proof.Defs
import proofs.«153581_j69269232549994_2_alg».proof.Proof.Gen.Kernel
import proofs.«153581_j69269232549994_2_alg».proof.Proof.Gen.Kernel.Frame
import proofs.«153581_j69269232549994_2_alg».proof.Proof.Gen.KernelIdeal
import proofs.«153581_j69269232549994_2_alg».proof.Proof.Gen.KernelIdeal.Frame
import proofs.«153581_j69269232549994_2_alg».proof.Proof.Gen.ReferenceIdeal
import proofs.«153581_j69269232549994_2_alg».proof.Proof.Gen.Pre_finite_inputs
import proofs.«153581_j69269232549994_2_alg».proof.Proof.KernelRun
import proofs.«153581_j69269232549994_2_alg».proof.Proof.KernelValue
import proofs.«153581_j69269232549994_2_alg».proof.Proof.RefRun
import proofs.«153581_j69269232549994_2_alg».proof.Proof.RefValue
import proofs.«153581_j69269232549994_2_alg».proof.Proof.Graph
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run, with the two results dropped. -/
theorem frame_reference : Cert.frame_ReferenceIdeal := fun m ρ _ =>
  (θ_run Cert.ReferenceIdeal.defs _ _).mono (fun _ h c => (h c).2.2)
    (Cert.ReferenceIdeal.ValueP.run (F := Ideal) m ρ)

/-- On the extended reals, from memories agreeing on the six arguments, both programs end with the hidden layer
    and the output layer of the graph aggregation of the first layer — the same two functions of the arguments. -/
theorem algebraic : Cert.algebraic_KernelIdeal_ReferenceIdeal := by
  intro m ρ m' ρ' _ hagree
  refine ⟨fun c => Cert.Gcn.hidden (Cert.KernelIdeal.Graph.aggOf (Cert.Gcn.lin (m ((c.tc : Thread Cert.KernelIdeal.nD Cert.KernelIdeal.τ).loc Cert.KernelIdeal.main_arg0)) (Cert.Gcn.tr (m ((c.tc : Thread Cert.KernelIdeal.nD Cert.KernelIdeal.τ).loc Cert.KernelIdeal.main_arg2)))) (m ((c.tc : Thread Cert.KernelIdeal.nD Cert.KernelIdeal.τ).loc Cert.KernelIdeal.main_arg1))) (m ((c.tc : Thread Cert.KernelIdeal.nD Cert.KernelIdeal.τ).loc Cert.KernelIdeal.main_arg3)),
    fun c => Cert.Gcn.out (Cert.Gcn.hidden (Cert.KernelIdeal.Graph.aggOf (Cert.Gcn.lin (m ((c.tc : Thread Cert.KernelIdeal.nD Cert.KernelIdeal.τ).loc Cert.KernelIdeal.main_arg0)) (Cert.Gcn.tr (m ((c.tc : Thread Cert.KernelIdeal.nD Cert.KernelIdeal.τ).loc Cert.KernelIdeal.main_arg2)))) (m ((c.tc : Thread Cert.KernelIdeal.nD Cert.KernelIdeal.τ).loc Cert.KernelIdeal.main_arg1))) (m ((c.tc : Thread Cert.KernelIdeal.nD Cert.KernelIdeal.τ).loc Cert.KernelIdeal.main_arg3))) (Cert.Gcn.tr (m ((c.tc : Thread Cert.KernelIdeal.nD Cert.KernelIdeal.τ).loc Cert.KernelIdeal.main_arg4))) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KernelValue.hidden_result m ρ c),
        (h c).2.1.trans (Cert.KernelIdeal.KernelValue.out_result m ρ c), (h c).2.2⟩)
      (Cert.KernelIdeal.Results.run (F := Ideal) m ρ)
  · refine (θ_run Cert.ReferenceIdeal.defs _ _).mono (fun r h c => ?_)
      (Cert.ReferenceIdeal.ValueP.run (F := Ideal) m' ρ')
    obtain ⟨h0, h1, h2, h3, h4, h5⟩ := hagree c
    refine ⟨(h c).1.trans ((Cert.ReferenceIdeal.RefValue.res0_eq m' c).trans ?_),
      (h c).2.1.trans ((Cert.ReferenceIdeal.RefValue.res1_eq m' c).trans ?_), (h c).2.2⟩
    · rw [h0, h1, h2, h3, ← Cert.Graph.aggOf_eq]
    · rw [h0, h1, h2, h3, h4, h5, ← Cert.Graph.aggOf_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
